-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x128 : Shape := ⟨3, ![4, 512, 128]⟩
abbrev S384x128 : Shape := ⟨2, ![384, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S4x512x128 : S_.BroadcastsInDim S4x512x128 (![] : Fin 0 → Fin S4x512x128.rank)
  reducesTo_S4x512x128_S_d0_1_2 : S4x512x128.ReducesTo [0, 1, 2] S_
  h_S_ : 0 < S_.numel
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S128 .f32) (main_arg5 : FVec F S128 .f32) (main_arg6 : FVec F S128x1 .f32) (main_arg7 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_v33

def fn {F : FTy → Type} [FloatOps F] (main_arg0 : FVec F S4x512x128 .f32) (main_arg1 : FVec F S4x512x128 .f32) (main_arg2 : FVec F S384x128 .f32) (main_arg3 : FVec F S128 .f32) (main_arg4 : FVec F S128 .f32) (main_arg5 : FVec F S128 .f32) (main_arg6 : FVec F S128x1 .f32) (main_arg7 : FVec F S1 .f32) : IVec S_ 1 :=
  let main_v0 : FVec F S4x512x128 .f32 := Host.absf main_arg0
  let main_cst : FVec F S_ .f32 := constant S_ .f32 0x7F800000#32
  let main_v1 : FVec F S4x512x128 .f32 := broadcastInDim S4x512x128 ![] bcast_S_S4x512x128 main_cst
  let main_v2 : IVec S4x512x128 1 := cmpf .olt main_v0 main_v1
  let main_c : IVec S_ 1 := constantI S_ 1 1#1
  let main_v3 : IVec S_ 1 := (fun x v => Host.reduce IntOp.andi x v reducesTo_S4x512x128_S_d0_1_2 h_S_) main_v2 main_c
  let main_v4 : FVec F S4x512x128 .f32 := Host.absf main_arg1
  let main_cst_0 : FVec F S_ .f32 := constant S_ .f32 0x7F800000#32
  let main_v5 : FVec F S4x512x128 .f32 := broadcastInDim S4x512x128 ![] bcast_S_S4x512x128 main_cst_0
  let main_v6 : IVec S4x512x128 1 := cmpf .olt main_v4 main_v5
  let main_c_1 : IVec S_ 1 := constantI S_ 1 1#1
  let main_v7 : IVec S_ 1 := (fun x v => Host.reduce IntOp.andi x v reducesTo_S4x512x128_S_d0_1_2 h_S_) main_v6 main_c_1
  let main_v8 : IVec S_ 1 := andi main_v3 main_v7
  let main_v9 : FVec F S384x128 .f32 := Host.absf main_arg2
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S4x512x128 : Shape := ⟨3, ![4, 512, 128]⟩
abbrev S384x128 : Shape := ⟨2, ![384, 128]⟩
abbrev S128 : Shape := ⟨1, ![128]⟩
abbrev S128x1 : Shape := ⟨2, ![128, 1]⟩
abbrev S1 : Shape := ⟨1, ![1]⟩
abbrev S128x128 : Shape := ⟨2, ![128, 128]⟩
abbrev S1x128 : Shape := ⟨2, ![1, 128]⟩
abbrev S1x1 : Shape := ⟨2, ![1, 1]⟩
abbrev S4x512x512 : Shape := ⟨3, ![4, 512, 512]⟩
abbrev S1x64x128 : Shape := ⟨3, ![1, 64, 128]⟩
abbrev S1x256x128 : Shape := ⟨3, ![1, 256, 128]⟩
abbrev S1x64x256 : Shape := ⟨3, ![1, 64, 256]⟩
abbrev S64x128 : Shape := ⟨2, ![64, 128]⟩
abbrev S256x128 : Shape := ⟨2, ![256, 128]⟩
abbrev S64x1x128 : Shape := ⟨3, ![64, 1, 128]⟩
abbrev S64x256x128 : Shape := ⟨3, ![64, 256, 128]⟩
abbrev S16384x128 : Shape := ⟨2, ![16384, 128]⟩
abbrev S1x1x128 : Shape := ⟨3, ![1, 1, 128]⟩
abbrev S64x256 : Shape := ⟨2, ![64, 256]⟩
abbrev S64x256x1 : Shape := ⟨3, ![64, 256, 1]⟩

abbrev nBuf : Space → Nat
  | .hbm => 20
  | .vmem => 14
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S384x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S128x128, .f32⟩
  | .hbm, ⟨9, _⟩ => ⟨S128x128, .bf16⟩
  | .hbm, ⟨10, _⟩ => ⟨S128x128, .f32⟩
  | .hbm, ⟨11, _⟩ => ⟨S128x128, .bf16⟩
  | .hbm, ⟨12, _⟩ => ⟨S128x128, .f32⟩
  | .hbm, ⟨13, _⟩ => ⟨S128x128, .bf16⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x128, .f32⟩
  | .hbm, ⟨18, _⟩ => ⟨S1x1, .f32⟩
  | .hbm, ⟨19, _⟩ => ⟨S4x512x512, .f32⟩
  | .local _ .vmem, ⟨0, _⟩ => ⟨S1x64x128, .f32⟩
  | .local _ .vmem, ⟨1, _⟩ => ⟨S1x64x128, .f32⟩
  | .local _ .vmem, ⟨2, _⟩ => ⟨S1x256x128, .f32⟩
  | .local _ .vmem, ⟨3, _⟩ => ⟨S1x256x128, .f32⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x1, .f32⟩
  | .local _ .vmem, ⟨12, _⟩ => ⟨S1x64x256, .f32⟩
  | .local _ .vmem, ⟨13, _⟩ => ⟨S1x64x256, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨3, ![4, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

class Facts₀ : Prop where
  slices_S384x128_S128x128_0_0 : S384x128.Slices ![0, 0] S128x128
  bitsLt_bf16_f32 : FTy.bits .bf16 < FTy.bits .f32
  slices_S384x128_S128x128_128_0 : S384x128.Slices ![128, 0] S128x128
  slices_S384x128_S128x128_256_0 : S384x128.Slices ![256, 0] S128x128
  shapeCasts_S128_S1x128 : S128.ShapeCasts S1x128
  shapeCasts_S128x1_S1x128 : S128x1.ShapeCasts S1x128
  shapeCasts_S1_S1x1 : S1.ShapeCasts S1x1
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  shapeCasts_S64x128_S64x1x128 : S64x128.ShapeCasts S64x1x128
  shapeCasts_S256x128_S1x256x128 : S256x128.ShapeCasts S1x256x128
  broadcasts_S64x1x128_S64x256x128 : S64x1x128.Broadcasts S64x256x128
  broadcasts_S1x256x128_S64x256x128 : S1x256x128.Broadcasts S64x256x128
  shapeCasts_S64x256x128_S16384x128 : S64x256x128.ShapeCasts S16384x128
  shapeCasts_S16384x128_S64x256x128 : S16384x128.ShapeCasts S64x256x128
  shapeCasts_S1x128_S1x1x128 : S1x128.ShapeCasts S1x1x128
  broadcasts_S1x1x128_S64x256x128 : S1x1x128.Broadcasts S64x256x128
  reduces_S64x256x128_S64x256 : S64x256x128.Reduces [2] S64x256
  shapeCasts_S64x256_S64x256x1 : S64x256.ShapeCasts S64x256x1
  broadcasts_S64x256x1_S64x256x128 : S64x256x1.Broadcasts S64x256x128
  broadcasts_S1x1_S64x256 : S1x1.Broadcasts S64x256
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  dot_S64x128_S128x128_S64x128_1_0_0_1_n_n_wf : DotDims.WF S64x128 S128x128 S64x128 [1] [0] [0] [1] [] []
  dot_S256x128_S128x128_S256x128_1_0_0_1_n_n_wf : DotDims.WF S256x128 S128x128 S256x128 [1] [0] [0] [1] [] []
  dot_S16384x128_S128x128_S16384x128_1_0_0_1_n_n_wf : DotDims.WF S16384x128 S128x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128.size a ≤ S4x512x128.size a
  hwx0_0 : ∀ i : grid0.Coords, EltTy.bits .f32 = 32 ∨ (Rect.block (s := S4x512x128) S1x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S4x512x128.size a
  hwx0_1 : ∀ i : grid0.Coords, EltTy.bits .f32 = 32 ∨ (Rect.block (s := S4x512x128) S1x256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x64x256.size a ≤ S4x512x512.size a
  hwx0_10 : ∀ i : grid0.Coords, EltTy.bits .f32 = 32 ∨ (Rect.block (s := S4x512x512) S1x64x256.size (cc0_transform_10 i) (hinb0_10 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

abbrev win0_0 : Pipeline.Window sig grid0 :=
  Pipeline.Window.ofSpec (Memref.whole main_arg0) S1x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v10) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x64x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4x512x128 : Shape := ⟨3, ![4, 512, 128]⟩
abbrev S384x128 : Shape := ⟨2, ![384, 128]⟩
abbrev S128 : Shape := ⟨1, ![128]⟩
abbrev S128x1 : Shape := ⟨2, ![128, 1]⟩
abbrev S1 : Shape := ⟨1, ![1]⟩
abbrev S4x512x1x128 : Shape := ⟨4, ![4, 512, 1, 128]⟩
abbrev S4x1x512x128 : Shape := ⟨4, ![4, 1, 512, 128]⟩
abbrev S4x512x512x128 : Shape := ⟨4, ![4, 512, 512, 128]⟩
abbrev S128x128 : Shape := ⟨2, ![128, 128]⟩
abbrev S1x1x1x128 : Shape := ⟨4, ![1, 1, 1, 128]⟩
abbrev S_ : Shape := ⟨0, ![]⟩
abbrev S4x512x512 : Shape := ⟨3, ![4, 512, 512]⟩
abbrev S4x512x512x1 : Shape := ⟨4, ![4, 512, 512, 1]⟩
abbrev S1x1x1x1 : Shape := ⟨4, ![1, 1, 1, 1]⟩

abbrev nBuf : Space → Nat
  | .hbm => 69
  | .vmem => 0
  | .smem => 0
  | _ => 0

abbrev bufTy : (tb : Table) → Fin (tcTables nBuf tb) → BufTy
  | .hbm, ⟨0, _⟩ => ⟨S4x512x128, .f32⟩
  | .hbm, ⟨1, _⟩ => ⟨S4x512x128, .f32⟩
  | .hbm, ⟨2, _⟩ => ⟨S384x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x1, .f32⟩
  | .hbm, ⟨7, _⟩ => ⟨S1, .f32⟩
  | .hbm, ⟨8, _⟩ => ⟨S4x512x1x128, .f32⟩
  | .hbm, ⟨9, _⟩ => ⟨S4x1x512x128, .f32⟩
  | .hbm, ⟨10, _⟩ => ⟨S4x512x512x128, .f32⟩
  | .hbm, ⟨11, _⟩ => ⟨S4x512x512x128, .f32⟩
  | .hbm, ⟨12, _⟩ => ⟨S4x512x512x128, .f32⟩
  | .hbm, ⟨13, _⟩ => ⟨S4x512x512x128, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S4x512x128, .f32⟩
  | .hbm, ⟨18, _⟩ => ⟨S4x512x1x128, .f32⟩
  | .hbm, ⟨19, _⟩ => ⟨S4x512x128, .f32⟩
  | .hbm, ⟨20, _⟩ => ⟨S4x1x512x128, .f32⟩
  | .hbm, ⟨21, _⟩ => ⟨S4x512x512x128, .f32⟩
  | .hbm, ⟨22, _⟩ => ⟨S4x512x512x128, .f32⟩
  | .hbm, ⟨23, _⟩ => ⟨S4x512x512x128, .f32⟩
  | .hbm, ⟨24, _⟩ => ⟨S4x512x512x128, .f32⟩
  | .hbm, ⟨25, _⟩ => ⟨S4x512x512x128, .f32⟩
  | .hbm, ⟨26, _⟩ => ⟨S1x1x1x128, .f32⟩
  | .hbm, ⟨27, _⟩ => ⟨S4x512x512x128, .f32⟩
  | .hbm, ⟨28, _⟩ => ⟨S4x512x512x128, .f32⟩
  | .hbm, ⟨29, _⟩ => ⟨S_, .f32⟩
  | .hbm, ⟨30, _⟩ => ⟨S4x512x512, .f32⟩
  | .hbm, ⟨31, _⟩ => ⟨S4x512x512x1, .f32⟩
  | .hbm, ⟨32, _⟩ => ⟨S_, .f32⟩
  | .hbm, ⟨33, _⟩ => ⟨S4x512x512x1, .f32⟩
  | .hbm, ⟨34, _⟩ => ⟨S4x512x512x1, .f32⟩
  | .hbm, ⟨35, _⟩ => ⟨S4x512x512x128, .f32⟩
  | .hbm, ⟨36, _⟩ => ⟨S4x512x512x128, .f32⟩
  | .hbm, ⟨37, _⟩ => ⟨S4x512x512x128, .f32⟩
  | .hbm, ⟨38, _⟩ => ⟨S_, .f32⟩
  | .hbm, ⟨39, _⟩ => ⟨S4x512x512, .f32⟩
  | .hbm, ⟨40, _⟩ => ⟨S4x512x512x1, .f32⟩
  | .hbm, ⟨41, _⟩ => ⟨S_, .f32⟩
  | .hbm, ⟨42, _⟩ => ⟨S4x512x512x1, .f32⟩
  | .hbm, ⟨43, _⟩ => ⟨S4x512x512x1, .f32⟩
  | .hbm, ⟨44, _⟩ => ⟨S4x512x512x128, .f32⟩
  | .hbm, ⟨45, _⟩ => ⟨S4x512x512x128, .f32⟩
  | .hbm, ⟨46, _⟩ => ⟨S_, .f32⟩
  | .hbm, ⟨47, _⟩ => ⟨S4x512x512x1, .f32⟩
  | .hbm, ⟨48, _⟩ => ⟨S4x512x512x1, .f32⟩
  | .hbm, ⟨49, _⟩ => ⟨S4x512x512x1, .f32⟩
  | .hbm, ⟨50, _⟩ => ⟨S4x512x512x128, .f32⟩
  | .hbm, ⟨51, _⟩ => ⟨S4x512x512x128, .f32⟩
  | .hbm, ⟨52, _⟩ => ⟨S1x1x1x128, .f32⟩
  | .hbm, ⟨53, _⟩ => ⟨S4x512x512x128, .f32⟩
  | .hbm, ⟨54, _⟩ => ⟨S4x512x512x128, .f32⟩
  | .hbm, ⟨55, _⟩ => ⟨S1x1x1x128, .f32⟩
  | .hbm, ⟨56, _⟩ => ⟨S4x512x512x128, .f32⟩
  | .hbm, ⟨57, _⟩ => ⟨S4x512x512x128, .f32⟩
  | .hbm, ⟨58, _⟩ => ⟨S_, .f32⟩
  | .hbm, ⟨59, _⟩ => ⟨S4x512x512x128, .f32⟩
  | .hbm, ⟨60, _⟩ => ⟨S4x512x512x128, .f32⟩
  | .hbm, ⟨61, _⟩ => ⟨S4x512x512x1, .f32⟩
  | .hbm, ⟨62, _⟩ => ⟨S1x1x1x1, .f32⟩
  | .hbm, ⟨63, _⟩ => ⟨S4x512x512x1, .f32⟩
  | .hbm, ⟨64, _⟩ => ⟨S4x512x512x1, .f32⟩
  | .hbm, ⟨65, _⟩ => ⟨S_, .f32⟩
  | .hbm, ⟨66, _⟩ => ⟨S4x512x512x1, .f32⟩
  | .hbm, ⟨67, _⟩ => ⟨S4x512x512x1, .f32⟩
  | .hbm, ⟨68, _⟩ => ⟨S4x512x512, .f32⟩
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_call0_cst : Ref sig .tc := ⟨.hbm, 58, rfl⟩
abbrev main_call0_v0 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_call1_cst : Ref sig .tc := ⟨.hbm, 65, rfl⟩
abbrev main_call1_v0 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]

class Facts₀ : Prop where
  bcast_S4x512x128_S4x512x1x128_0_1_3 : S4x512x128.BroadcastsInDim S4x512x1x128 (![0, 1, 3] : Fin 3 → Fin S4x512x1x128.rank)
  bcast_S4x512x128_S4x1x512x128_0_2_3 : S4x512x128.BroadcastsInDim S4x1x512x128 (![0, 2, 3] : Fin 3 → Fin S4x1x512x128.rank)
  bcast_S4x512x1x128_S4x512x512x128_0_1_2_3 : S4x512x1x128.BroadcastsInDim S4x512x512x128 (![0, 1, 2, 3] : Fin 4 → Fin S4x512x512x128.rank)
  bcast_S4x1x512x128_S4x512x512x128_0_1_2_3 : S4x1x512x128.BroadcastsInDim S4x512x512x128 (![0, 1, 2, 3] : Fin 4 → Fin S4x512x512x128.rank)
  slices_S384x128_S128x128_0_0 : S384x128.Slices ![0, 0] S128x128
  slices_S384x128_S128x128_128_0 : S384x128.Slices ![128, 0] S128x128
  slices_S384x128_S128x128_256_0 : S384x128.Slices ![256, 0] S128x128
  bcast_S128_S1x1x1x128_3 : S128.BroadcastsInDim S1x1x1x128 (![3] : Fin 1 → Fin S1x1x1x128.rank)
  bcast_S1x1x1x128_S4x512x512x128_0_1_2_3 : S1x1x1x128.BroadcastsInDim S4x512x512x128 (![0, 1, 2, 3] : Fin 4 → Fin S4x512x512x128.rank)
  reducesTo_S4x512x512x128_S4x512x512_d3 : S4x512x512x128.ReducesTo [3] S4x512x512
  h_S_ : 0 < S_.numel
  bcast_S4x512x512_S4x512x512x1_0_1_2 : S4x512x512.BroadcastsInDim S4x512x512x1 (![0, 1, 2] : Fin 3 → Fin S4x512x512x1.rank)
  bcast_S_S4x512x512x1 : S_.BroadcastsInDim S4x512x512x1 (![] : Fin 0 → Fin S4x512x512x1.rank)
  bcast_S4x512x512x1_S4x512x512x128_0_1_2_3 : S4x512x512x1.BroadcastsInDim S4x512x512x128 (![0, 1, 2, 3] : Fin 4 → Fin S4x512x512x128.rank)
  bcast_S_S4x512x512x128 : S_.BroadcastsInDim S4x512x512x128 (![] : Fin 0 → Fin S4x512x512x128.rank)
  bcast_S1_S1x1x1x1_3 : S1.BroadcastsInDim S1x1x1x1 (![3] : Fin 1 → Fin S1x1x1x1.rank)
  bcast_S1x1x1x1_S4x512x512x1_0_1_2_3 : S1x1x1x1.BroadcastsInDim S4x512x512x1 (![0, 1, 2, 3] : Fin 4 → Fin S4x512x512x1.rank)
  shapeCasts_S4x512x512x1_S4x512x512 : S4x512x512x1.ShapeCasts S4x512x512
  dot_S4x512x128_S128x128_S4x512x128_2_0_01_1_n_n_wf : DotDims.WF S4x512x128 S128x128 S4x512x128 [2] [0] [0, 1] [1] [] []
  dot_S4x512x512x128_S128x128_S4x512x512x128_3_0_012_1_n_n_wf : DotDims.WF S4x512x512x128 S128x128 S4x512x512x128 [3] [0] [0, 1, 2] [1] [] []
  dot_S4x512x512x128_S128x1_S4x512x512x1_3_0_012_1_n_n_wf : DotDims.WF S4x512x512x128 S128x1 S4x512x512x1 [3] [0] [0, 1, 2] [1] [] []

variable [Facts₀]

def dot_S4x512x128_S128x128_S4x512x128_2_0_01_1_n_n : DotDims S4x512x128 S128x128 S4x512x128 where
  lhsContracting := [2]
  rhsContracting := [0]
  lhsNonContracting := [0, 1]
  rhsNonContracting := [1]
  lhsBatch := []
  rhsBatch := []
  wf := dot_S4x512x128_S128x128_S4x512x128_2_0_01_1_n_n_wf
def dot_S4x512x512x128_S128x128_S4x512x512x128_3_0_012_1_n_n : DotDims S4x512x512x128 S128x128 S4x512x512x128 where
  lhsContracting := [3]
  rhsContracting := [0]
  lhsNonContracting := [0, 1, 2]
  rhsNonContracting := [1]
  lhsBatch := []
  rhsBatch := []
  wf := dot_S4x512x512x128_S128x128_S4x512x512x128_3_0_012_1_n_n_wf
def dot_S4x512x512x128_S128x1_S4x512x512x1_3_0_012_1_n_n : DotDims S4x512x512x128 S128x1 S4x512x512x1 where
  lhsContracting := [3]
  rhsContracting := [0]
  lhsNonContracting := [0, 1, 2]
  rhsNonContracting := [1]
  lhsBatch := []
  rhsBatch := []
  wf := dot_S4x512x512x128_S128x1_S4x512x512x1_3_0_012_1_n_n_wf

class Facts : Prop extends Facts₀ where

variable [Facts]
-- ==== Proof.BlockLayout.lean ====
/-
  A grid point's block of the pair grid, [64, 256, 128] = (row of x, row of y, hidden unit), and the smaller arrays the
  body broadcasts into it or re-lays: where an entry of the broadcast or re-laid array comes from.

  A broadcast reads its operand at the same coordinates, `0` on the operand's unit axes; a shape cast reads its
  operand at the index with the same row-major position — the pair (n, m) of the grid is row `n·256 + m` of the
  [16384, 128] matrix the third contraction works on; and the sum along the last axis at (n, m) is the sum over the
  hidden unit k of the entries (n, m, k).
-/
import Idealize.ShloMosaic.Lib.Pipeline.Value
import Idealize.ShloMosaic.Lib.ValueIdx
import Idealize.ShloMosaic.PureOps.Ideal.Laws

noncomputable section

open scoped BigOperators

namespace Cert.BlockLayout

open Idealize.ShloMosaic Idealize.ShloMosaic.ValueIdx

/-- Row `n·256 + m` of the flattened pair grid. -/
abbrev pairRow (n : Fin 64) (m : Fin 256) : Fin 16384 := ⟨n.val * 256 + m.val, by have := n.isLt; have := m.isLt; omega⟩

section Broadcasts
variable {α : Type}

/-- A per-pair value (keepdims column) spread along the hidden axis. -/
theorem bcast_keep (v : (⟨3, ![64, 256, 1]⟩ : Shape).Idx → α) (h : (⟨3, ![64, 256, 1]⟩ : Shape).Broadcasts ⟨3, ![64, 256, 128]⟩) (n : Fin 64) (m : Fin 256) (k : Fin 128) :
    broadcastTo ⟨3, ![64, 256, 128]⟩ v h (ix3 n m k) = v (ix3 n m (0 : Fin 1)) :=
  broadcastTo_apply v h _ _ fun a => match a with
    | ⟨0, _⟩ => by show n.val = if (64 : Nat) = 1 then 0 else n.val; rw [if_neg (by decide)]
    | ⟨1, _⟩ => by show m.val = if (256 : Nat) = 1 then 0 else m.val; rw [if_neg (by decide)]
    | ⟨2, _⟩ => by show 0 = if (1 : Nat) = 1 then 0 else k.val; rw [if_pos rfl]

/-- A per-x-row array spread along the y rows. -/
theorem bcast_xrow (v : (⟨3, ![64, 1, 128]⟩ : Shape).Idx → α) (h : (⟨3, ![64, 1, 128]⟩ : Shape).Broadcasts ⟨3, ![64, 256, 128]⟩) (n : Fin 64) (m : Fin 256) (k : Fin 128) :
    broadcastTo ⟨3, ![64, 256, 128]⟩ v h (ix3 n m k) = v (ix3 n (0 : Fin 1) k) :=
  broadcastTo_apply v h _ _ fun a => match a with
    | ⟨0, _⟩ => by show n.val = if (64 : Nat) = 1 then 0 else n.val; rw [if_neg (by decide)]
    | ⟨1, _⟩ => by show 0 = if (1 : Nat) = 1 then 0 else m.val; rw [if_pos rfl]
    | ⟨2, _⟩ => by show k.val = if (128 : Nat) = 1 then 0 else k.val; rw [if_neg (by decide)]

/-- A per-y-row array spread along the x rows. -/
theorem bcast_yrow (v : (⟨3, ![1, 256, 128]⟩ : Shape).Idx → α) (h : (⟨3, ![1, 256, 128]⟩ : Shape).Broadcasts ⟨3, ![64, 256, 128]⟩) (n : Fin 64) (m : Fin 256) (k : Fin 128) :
    broadcastTo ⟨3, ![64, 256, 128]⟩ v h (ix3 n m k) = v (ix3 (0 : Fin 1) m k) :=
  broadcastTo_apply v h _ _ fun a => match a with
    | ⟨0, _⟩ => by show 0 = if (1 : Nat) = 1 then 0 else n.val; rw [if_pos rfl]
    | ⟨1, _⟩ => by show m.val = if (256 : Nat) = 1 then 0 else m.val; rw [if_neg (by decide)]
    | ⟨2, _⟩ => by show k.val = if (128 : Nat) = 1 then 0 else k.val; rw [if_neg (by decide)]

/-- A per-hidden-unit vector spread over all pairs. -/
theorem bcast_lane (v : (⟨3, ![1, 1, 128]⟩ : Shape).Idx → α) (h : (⟨3, ![1, 1, 128]⟩ : Shape).Broadcasts ⟨3, ![64, 256, 128]⟩) (n : Fin 64) (m : Fin 256) (k : Fin 128) :
    broadcastTo ⟨3, ![64, 256, 128]⟩ v h (ix3 n m k) = v (ix3 (0 : Fin 1) (0 : Fin 1) k) :=
  broadcastTo_apply v h _ _ fun a => match a with
    | ⟨0, _⟩ => by show 0 = if (1 : Nat) = 1 then 0 else n.val; rw [if_pos rfl]
    | ⟨1, _⟩ => by show 0 = if (1 : Nat) = 1 then 0 else m.val; rw [if_pos rfl]
    | ⟨2, _⟩ => by show k.val = if (128 : Nat) = 1 then 0 else k.val; rw [if_neg (by decide)]

/-- A single value spread over all pairs. -/
theorem bcast_scalar (v : (⟨2, ![1, 1]⟩ : Shape).Idx → α) (h : (⟨2, ![1, 1]⟩ : Shape).Broadcasts ⟨2, ![64, 256]⟩) (n : Fin 64) (m : Fin 256) :
    broadcastTo ⟨2, ![64, 256]⟩ v h (ix2 n m) = v (ix2 (0 : Fin 1) (0 : Fin 1)) :=
  broadcastTo_apply v h _ _ fun a => match a with
    | ⟨0, _⟩ => by show 0 = if (1 : Nat) = 1 then 0 else n.val; rw [if_pos rfl]
    | ⟨1, _⟩ => by show 0 = if (1 : Nat) = 1 then 0 else m.val; rw [if_pos rfl]

end Broadcasts

section Casts
variable {α : Type}

/-- [64, 256] viewed [64, 256, 1]. -/
theorem cast_keep (v : (⟨2, ![64, 256]⟩ : Shape).Idx → α) (h : (⟨2, ![64, 256]⟩ : Shape).ShapeCasts ⟨3, ![64, 256, 1]⟩)
    (n : Fin 64) (m : Fin 256) : shapeCast ⟨3, ![64, 256, 1]⟩ v h (ix3 n m (0 : Fin 1)) = v (ix2 n m) :=
  shapeCast_apply v h _ _ (by
    rw [Shape.rowMajor_val_two, Shape.rowMajor_val_three]
    show n.val * 256 + m.val = (n.val * 256 + m.val) * 1 + 0; omega)

/-- [64, 128] viewed [64, 1, 128]. -/
theorem cast_xrow (v : (⟨2, ![64, 128]⟩ : Shape).Idx → α) (h : (⟨2, ![64, 128]⟩ : Shape).ShapeCasts ⟨3, ![64, 1, 128]⟩)
    (n : Fin 64) (k : Fin 128) : shapeCast ⟨3, ![64, 1, 128]⟩ v h (ix3 n (0 : Fin 1) k) = v (ix2 n k) :=
  shapeCast_apply v h _ _ (by
    rw [Shape.rowMajor_val_two, Shape.rowMajor_val_three]
    show n.val * 128 + k.val = (n.val * 1 + 0) * 128 + k.val; omega)

/-- [256, 128] viewed [1, 256, 128]. -/
theorem cast_yrow (v : (⟨2, ![256, 128]⟩ : Shape).Idx → α) (h : (⟨2, ![256, 128]⟩ : Shape).ShapeCasts ⟨3, ![1, 256, 128]⟩)
    (m : Fin 256) (k : Fin 128) : shapeCast ⟨3, ![1, 256, 128]⟩ v h (ix3 (0 : Fin 1) m k) = v (ix2 m k) :=
  shapeCast_apply v h _ _ (by
    rw [Shape.rowMajor_val_two, Shape.rowMajor_val_three]
    show m.val * 128 + k.val = (0 * 256 + m.val) * 128 + k.val; omega)

/-- [1, 128] viewed [1, 1, 128]. -/
theorem cast_lane (v : (⟨2, ![1, 128]⟩ : Shape).Idx → α) (h : (⟨2, ![1, 128]⟩ : Shape).ShapeCasts ⟨3, ![1, 1, 128]⟩)
    (k : Fin 128) : shapeCast ⟨3, ![1, 1, 128]⟩ v h (ix3 (0 : Fin 1) (0 : Fin 1) k) = v (ix2 (0 : Fin 1) k) :=
  shapeCast_apply v h _ _ (by
    rw [Shape.rowMajor_val_two, Shape.rowMajor_val_three]
    show 0 * 128 + k.val = (0 * 1 + 0) * 128 + k.val; omega)

/-- The [16384, 128] matrix viewed as the pair grid: entry (n, m, k) is row `n·256 + m`, column k. -/
theorem cast_grid (v : (⟨2, ![16384, 128]⟩ : Shape).Idx → α) (h : (⟨2, ![16384, 128]⟩ : Shape).ShapeCasts ⟨3, ![64, 256, 128]⟩)
    (n : Fin 64) (m : Fin 256) (k : Fin 128) : shapeCast ⟨3, ![64, 256, 128]⟩ v h (ix3 n m k) = v (ix2 (pairRow n m) k) :=
  shapeCast_apply v h _ _ (by
    rw [Shape.rowMajor_val_two, Shape.rowMajor_val_three]
    show (n.val * 256 + m.val) * 128 + k.val = (n.val * 256 + m.val) * 128 + k.val; rfl)

/-- The pair grid flattened to the [16384, 128] matrix: row `n·256 + m`, column d is entry (n, m, d). -/
theorem cast_flat (v : (⟨3, ![64, 256, 128]⟩ : Shape).Idx → α) (h : (⟨3, ![64, 256, 128]⟩ : Shape).ShapeCasts ⟨2, ![16384, 128]⟩)
    (n : Fin 64) (m : Fin 256) (d : Fin 128) : shapeCast ⟨2, ![16384, 128]⟩ v h (ix2 (pairRow n m) d) = v (ix3 n m d) :=
  shapeCast_apply v h _ _ (by
    rw [Shape.rowMajor_val_two, Shape.rowMajor_val_three]
    show (n.val * 256 + m.val) * 128 + d.val = (n.val * 256 + m.val) * 128 + d.val; rfl)

/-- A [1, 64, 128] block viewed [64, 128]. -/
theorem cast_xblock (v : (⟨3, ![1, 64, 128]⟩ : Shape).Idx → α) (h : (⟨3, ![1, 64, 128]⟩ : Shape).ShapeCasts ⟨2, ![64, 128]⟩)
    (n : Fin 64) (d : Fin 128) : shapeCast ⟨2, ![64, 128]⟩ v h (ix2 n d) = v (ix3 (0 : Fin 1) n d) :=
  shapeCast_apply v h _ _ (by
    rw [Shape.rowMajor_val_two, Shape.rowMajor_val_three]
    show (0 * 64 + n.val) * 128 + d.val = n.val * 128 + d.val; omega)

/-- A [1, 256, 128] block viewed [256, 128]. -/
theorem cast_yblock (v : (⟨3, ![1, 256, 128]⟩ : Shape).Idx → α) (h : (⟨3, ![1, 256, 128]⟩ : Shape).ShapeCasts ⟨2, ![256, 128]⟩)
    (m : Fin 256) (d : Fin 128) : shapeCast ⟨2, ![256, 128]⟩ v h (ix2 m d) = v (ix3 (0 : Fin 1) m d) :=
  shapeCast_apply v h _ _ (by
    rw [Shape.rowMajor_val_two, Shape.rowMajor_val_three]
    show (0 * 256 + m.val) * 128 + d.val = m.val * 128 + d.val; omega)

/-- The [64, 256] result stored as a [1, 64, 256] block. -/
theorem cast_outblock (v : (⟨2, ![64, 256]⟩ : Shape).Idx → α) (h : (⟨2, ![64, 256]⟩ : Shape).ShapeCasts ⟨3, ![1, 64, 256]⟩)
    (n : Fin 64) (m : Fin 256) : shapeCast ⟨3, ![1, 64, 256]⟩ v h (ix3 (0 : Fin 1) n m) = v (ix2 n m) :=
  shapeCast_apply v h _ _ (by
    rw [Shape.rowMajor_val_two, Shape.rowMajor_val_three]
    show n.val * 256 + m.val = (0 * 64 + n.val) * 256 + m.val; omega)

end Casts

/-- The sum along the hidden axis of a [64, 256, 128] array of extended reals, at the pair (n, m). -/
theorem lane_sum (v : FVec Ideal ⟨3, ![64, 256, 128]⟩ .f32) (h : (⟨3, ![64, 256, 128]⟩ : Shape).Reduces [2] ⟨2, ![64, 256]⟩)
    (hφ : FKind.Formats .f32) (hacc : (0x00000000#32 : BitVec 32) = 0x00000000#32) (n : Fin 64) (m : Fin 256) :
    multiReduction .add [2] ⟨2, ![64, 256]⟩ v 0x00000000#32 h hφ hacc (ix2 n m) = ∑ k : Fin 128, v (ix3 n m k) :=
  (Ideal.multiReduction_add_single v _ h hφ hacc (ix2 n m)).trans
    (Finset.sum_congr rfl fun k _ => congrArg v
      (funext fun a => match a with | ⟨0, _⟩ => rfl | ⟨1, _⟩ => rfl | ⟨2, _⟩ => rfl))

/-- A reciprocal square root of a vector of extended reals, at an index. -/
theorem rsqrt_apply {s : Shape} {φ : FTy} (a : FVec Ideal s φ) (i : s.Idx) : rsqrt a i = Ideal.rsqrt (a i) := rfl

/-- An absolute value of a vector of extended reals, at an index: `max a (−a)`. -/
theorem absf_apply {s : Shape} {φ : FTy} (a : FVec Ideal s φ) (i : s.Idx) : absf a i = max (a i) (-(a i)) := rfl

end Cert.BlockLayout

end
-- ==== Proof.PairSpec.lean ====
/-
  The function both programs compute, one output entry at a time.

  Fix a batch `b` and a pair `(n, m)`: a row `x[b, n, :]` and a row `y[b, m, :]`, each of 128 extended reals. The
  first linear layer acts on the concatenation `[x | y | |x − y|]` through the three 128-row bands of `W1`, so the
  hidden row is
      h[k] = ((Σ_d x[d]·W1[d, k] + Σ_d y[d]·W1[128 + d, k]) + Σ_d |x[d] − y[d]|·W1[256 + d, k]) + b1[k].
  It is normalised over `k`: mean `μ = (Σ_k h[k]) / 128`, variance `v = (Σ_k (h[k] − μ)²) / 128`, scale
  `r = rsqrt (v + ε)`; then the affine map and the positive part, `a[k] = max (((h[k] − μ)·r)·γ[k] + β[k]) 0`; and the
  output entry is `max ((Σ_k a[k]·W2[k, 0]) + b2) 0`.

  Every operation is the extended reals' own (`Ideal.div`, `Ideal.rsqrt`, `max`, `+`, `·`), the two literals `128` and
  `ε` are kept as the words both programs carry, and |a| is `max a (−a)`. The two programs agree operation by operation
  and in the grouping of every sum of two terms, so no law that needs finite operands is used anywhere.
-/
import Idealize.ShloMosaic.PureOps.Ideal
import Idealize.ShloMosaic.Lib.ValueIdx

noncomputable section

open scoped BigOperators

namespace Cert.PairSpec

open Idealize.ShloMosaic Idealize.ShloMosaic.ValueIdx

/-- The hidden row of a pair before normalisation: the three projections summed left to right, then the bias. -/
def hiddenRow (xr yr : Fin 128 → EReal) (wx wy wd : Fin 128 → Fin 128 → EReal) (b1 : Fin 128 → EReal) (k : Fin 128) : EReal :=
  ((∑ d : Fin 128, xr d * wx d k) + (∑ d : Fin 128, yr d * wy d k)
    + (∑ d : Fin 128, max (xr d - yr d) (-(xr d - yr d)) * wd d k)) + b1 k

/-- The mean of a row of 128 entries: the sum divided by the word for `128`. -/
def rowMean (h : Fin 128 → EReal) : EReal :=
  Ideal.div (∑ k : Fin 128, h k) (Ideal.ofBits .f32 0x43000000#32)

/-- The normalising scale of a row: `rsqrt` of the mean squared deviation plus the word for `ε`. -/
def rowScale (h : Fin 128 → EReal) : EReal :=
  Ideal.rsqrt (Ideal.div (∑ k : Fin 128, (h k - rowMean h) * (h k - rowMean h)) (Ideal.ofBits .f32 0x43000000#32)
    + Ideal.ofBits .f32 0x3727C5AC#32)

/-- From the hidden row to the output entry: normalise, affine map, positive part, contraction with the second
    layer's column, bias, positive part. -/
def rowScore (h g be w : Fin 128 → EReal) (b2 : EReal) : EReal :=
  max ((∑ k : Fin 128, max ((h k - rowMean h) * rowScale h * g k + be k) 0 * w k) + b2) 0

/-- Row `d` of the band of `W1` that multiplies `x`. -/
abbrev bandX (d : Fin 128) : Fin 384 := ⟨d.val, by have := d.isLt; omega⟩
/-- Row `128 + d`: the band that multiplies `y`. -/
abbrev bandY (d : Fin 128) : Fin 384 := ⟨128 + d.val, by have := d.isLt; omega⟩
/-- Row `256 + d`: the band that multiplies `|x − y|`. -/
abbrev bandD (d : Fin 128) : Fin 384 := ⟨256 + d.val, by have := d.isLt; omega⟩

/-- The output entry `(b, n, m)` as a function of the eight argument arrays. -/
def entry (x y : (⟨3, ![4, 512, 128]⟩ : Shape).Idx → EReal) (W1 : (⟨2, ![384, 128]⟩ : Shape).Idx → EReal)
    (b1 g be : (⟨1, ![128]⟩ : Shape).Idx → EReal) (W2 : (⟨2, ![128, 1]⟩ : Shape).Idx → EReal)
    (b2 : (⟨1, ![1]⟩ : Shape).Idx → EReal) (b : Fin 4) (n mm : Fin 512) : EReal :=
  rowScore
    (hiddenRow (fun d => x (ix3 b n d)) (fun d => y (ix3 b mm d))
      (fun d k => W1 (ix2 (bandX d) k)) (fun d k => W1 (ix2 (bandY d) k)) (fun d k => W1 (ix2 (bandD d) k))
      (fun k => b1 (ix1 k)))
    (fun k => g (ix1 k)) (fun k => be (ix1 k)) (fun k => W2 (ix2 k (0 : Fin 1))) (b2 (ix1 (0 : Fin 1)))

/-- The whole output array. -/
def result (x y : (⟨3, ![4, 512, 128]⟩ : Shape).Idx → EReal) (W1 : (⟨2, ![384, 128]⟩ : Shape).Idx → EReal)
    (b1 g be : (⟨1, ![128]⟩ : Shape).Idx → EReal) (W2 : (⟨2, ![128, 1]⟩ : Shape).Idx → EReal)
    (b2 : (⟨1, ![1]⟩ : Shape).Idx → EReal) : (⟨3, ![4, 512, 512]⟩ : Shape).Idx → EReal :=
  fun i => entry x y W1 b1 g be W2 b2 (i 0) (i 1) (i 2)

theorem result_apply (x y : (⟨3, ![4, 512, 128]⟩ : Shape).Idx → EReal) (W1 : (⟨2, ![384, 128]⟩ : Shape).Idx → EReal)
    (b1 g be : (⟨1, ![128]⟩ : Shape).Idx → EReal) (W2 : (⟨2, ![128, 1]⟩ : Shape).Idx → EReal)
    (b2 : (⟨1, ![1]⟩ : Shape).Idx → EReal) (b : Fin 4) (n mm : Fin 512) :
    result x y W1 b1 g be W2 b2 (ix3 b n mm) = entry x y W1 b1 g be W2 b2 b n mm := rfl

/-- The bf16 zero word is the extended real `0` (the positive part's other operand in the kernel). -/
theorem ofBits_zero_bf16 : Ideal.ofBits .bf16 0x0000#16 = 0 := by simp [Ideal.ofBits, Ideal.ieee]

end Cert.PairSpec

end
-- ==== Proof.KernelRow.lean ====
/-
  The kernel's arithmetic after its three matrix products, read at one pair of a grid point's block.

  A grid point holds 64 rows of x and 256 rows of y. From the three products — xp[n, k], yp[m, k] and, for the
  flattened pair, dp[n·256 + m, k] — and the bias the body forms the hidden block
      h[n, m, k] = ((xp[n, k] + yp[m, k]) + dp[n·256 + m, k]) + b1[k],
  sums it along k and divides by 128 (the mean, kept as a column [64, 256, 1]), subtracts the mean, sums the squares
  of the differences along k, divides by 128, adds ε and takes rsqrt (the scale, again a column), multiplies the
  centred block by the scale, by γ, adds β, takes the positive part, multiplies by the second layer's weights, sums
  along k, adds b2 and takes the positive part. Changes of float format are the identity on extended reals.

  Each stage is named here as a function of whole vectors, exactly as the body spells it, and read at an index;
  together they say that the body's value at the pair (n, m) is `rowScore` of the row k ↦ h[n, m, k].
-/
import proofs.«147647_j1460288881502_2_alg».proof.Proof.Gen.KernelIdeal.Skeleton
import proofs.«147647_j1460288881502_2_alg».proof.Proof.BlockLayout
import proofs.«147647_j1460288881502_2_alg».proof.Proof.PairSpec

noncomputable section

open scoped BigOperators

namespace Cert.KernelRow

open Cert.KernelIdeal Cert.KernelIdeal.Gen Idealize.ShloMosaic Idealize.ShloMosaic.ValueIdx Cert.PairSpec Cert.BlockLayout

/-! ## The hidden block -/

/-- The hidden block of a grid point from the three products and the bias row. -/
def hiddenBlock (xp : FVec Ideal S64x128 .f32) (yp : FVec Ideal S256x128 .f32) (dp : FVec Ideal S16384x128 .f32)
    (b1 : FVec Ideal S1x128 .f32) : FVec Ideal S64x256x128 .f32 :=
  addf (addf (addf
      (broadcastTo S64x256x128 (shapeCast S64x1x128 xp shapeCasts_S64x128_S64x1x128) broadcasts_S64x1x128_S64x256x128)
      (broadcastTo S64x256x128 (shapeCast S1x256x128 yp shapeCasts_S256x128_S1x256x128) broadcasts_S1x256x128_S64x256x128))
      (shapeCast S64x256x128 dp shapeCasts_S16384x128_S64x256x128))
    (broadcastTo S64x256x128 (shapeCast S1x1x128 b1 shapeCasts_S1x128_S1x1x128) broadcasts_S1x1x128_S64x256x128)

theorem hiddenBlock_apply (xp : FVec Ideal S64x128 .f32) (yp : FVec Ideal S256x128 .f32) (dp : FVec Ideal S16384x128 .f32)
    (b1 : FVec Ideal S1x128 .f32) (n : Fin 64) (m : Fin 256) (k : Fin 128) :
    hiddenBlock xp yp dp b1 (ix3 n m k)
      = ((xp (ix2 n k) + yp (ix2 m k)) + dp (ix2 (pairRow n m) k)) + b1 (ix2 (0 : Fin 1) k) := by
  unfold hiddenBlock
  rw [addf_apply, addf_apply, addf_apply, bcast_xrow, cast_xrow, bcast_yrow, cast_yrow, cast_grid, bcast_lane, cast_lane]

/-! ## Mean, centring, scale -/

/-- The mean over the hidden axis, kept as a column. -/
def meanCol (hv : FVec Ideal S64x256x128 .f32) : FVec Ideal S64x256x1 .f32 :=
  divf (shapeCast S64x256x1
      (multiReduction .add [2] S64x256 hv 0x00000000#32 reduces_S64x256x128_S64x256 (.inl rfl) rfl) shapeCasts_S64x256_S64x256x1)
    (broadcast S64x256x1 (Scalar.ofBits .f32 0x43000000#32))

theorem meanCol_apply (hv : FVec Ideal S64x256x128 .f32) (n : Fin 64) (m : Fin 256) :
    meanCol hv (ix3 n m (0 : Fin 1)) = rowMean (fun k => hv (ix3 n m k)) := by
  unfold meanCol rowMean
  rw [divf_apply, cast_keep, lane_sum, broadcast_apply]
  rfl

/-- The block minus its mean column. -/
def centred (hv : FVec Ideal S64x256x128 .f32) : FVec Ideal S64x256x128 .f32 :=
  subf hv (broadcastTo S64x256x128 (meanCol hv) broadcasts_S64x256x1_S64x256x128)

theorem centred_apply (hv : FVec Ideal S64x256x128 .f32) (n : Fin 64) (m : Fin 256) (k : Fin 128) :
    centred hv (ix3 n m k) = hv (ix3 n m k) - rowMean (fun k => hv (ix3 n m k)) := by
  unfold centred
  rw [subf_apply, bcast_keep, meanCol_apply]

/-- The normalising scale, kept as a column. -/
def scaleCol (hv : FVec Ideal S64x256x128 .f32) : FVec Ideal S64x256x1 .f32 :=
  rsqrt (addf
    (divf (shapeCast S64x256x1
        (multiReduction .add [2] S64x256 (mulf (centred hv) (centred hv)) 0x00000000#32 reduces_S64x256x128_S64x256 (.inl rfl) rfl)
        shapeCasts_S64x256_S64x256x1)
      (broadcast S64x256x1 (Scalar.ofBits .f32 0x43000000#32)))
    (broadcast S64x256x1 (Scalar.ofBits .f32 0x3727C5AC#32)))

theorem scaleCol_apply (hv : FVec Ideal S64x256x128 .f32) (n : Fin 64) (m : Fin 256) :
    scaleCol hv (ix3 n m (0 : Fin 1)) = rowScale (fun k => hv (ix3 n m k)) := by
  unfold scaleCol rowScale
  rw [rsqrt_apply, addf_apply, divf_apply, cast_keep, lane_sum, broadcast_apply, broadcast_apply]
  simp only [mulf_apply, centred_apply]
  rfl

/-! ## Affine map, positive part, second layer -/

/-- The normalised block through the affine map and the positive part. -/
def activation (hv : FVec Ideal S64x256x128 .f32) (g be : FVec Ideal S1x128 .f32) : FVec Ideal S64x256x128 .bf16 :=
  maximumf (addf
      (mulf (truncf .bf16 (mulf (centred hv) (broadcastTo S64x256x128 (scaleCol hv) broadcasts_S64x256x1_S64x256x128)) bitsLt_bf16_f32)
        (broadcastTo S64x256x128 (shapeCast S1x1x128 (truncf .bf16 g bitsLt_bf16_f32) shapeCasts_S1x128_S1x1x128) broadcasts_S1x1x128_S64x256x128))
      (broadcastTo S64x256x128 (shapeCast S1x1x128 (truncf .bf16 be bitsLt_bf16_f32) shapeCasts_S1x128_S1x1x128) broadcasts_S1x1x128_S64x256x128))
    (broadcast S64x256x128 (Scalar.ofBits .bf16 0x0000#16))

theorem activation_apply (hv : FVec Ideal S64x256x128 .f32) (g be : FVec Ideal S1x128 .f32) (n : Fin 64) (m : Fin 256) (k : Fin 128) :
    activation hv g be (ix3 n m k)
      = max ((hv (ix3 n m k) - rowMean (fun k => hv (ix3 n m k))) * rowScale (fun k => hv (ix3 n m k)) * g (ix2 (0 : Fin 1) k)
          + be (ix2 (0 : Fin 1) k)) 0 := by
  unfold activation
  rw [maximumf_apply, addf_apply, mulf_apply, truncf_apply, mulf_apply, centred_apply, bcast_keep, scaleCol_apply,
    bcast_lane, cast_lane, truncf_apply, bcast_lane, cast_lane, truncf_apply, broadcast_apply]
  exact congrArg (max _) ofBits_zero_bf16

/-- The output block of a grid point from its hidden block and the small operands. -/
def outBlock (hv : FVec Ideal S64x256x128 .f32) (g be w : FVec Ideal S1x128 .f32) (b2 : FVec Ideal S1x1 .f32) : FVec Ideal S64x256 .f32 :=
  maximumf (addf
      (multiReduction .add [2] S64x256
        (extf .f32 (mulf (activation hv g be)
          (broadcastTo S64x256x128 (truncf .bf16 (shapeCast S1x1x128 w shapeCasts_S1x128_S1x1x128) bitsLt_bf16_f32) broadcasts_S1x1x128_S64x256x128))
          bitsLt_bf16_f32)
        0x00000000#32 reduces_S64x256x128_S64x256 (.inl rfl) rfl)
      (broadcastTo S64x256 b2 broadcasts_S1x1_S64x256))
    (broadcast S64x256 (Scalar.ofBits .f32 0x00000000#32))

theorem outBlock_apply (hv : FVec Ideal S64x256x128 .f32) (g be w : FVec Ideal S1x128 .f32) (b2 : FVec Ideal S1x1 .f32)
    (n : Fin 64) (m : Fin 256) :
    outBlock hv g be w b2 (ix2 n m)
      = rowScore (fun k => hv (ix3 n m k)) (fun k => g (ix2 (0 : Fin 1) k)) (fun k => be (ix2 (0 : Fin 1) k))
          (fun k => w (ix2 (0 : Fin 1) k)) (b2 (ix2 (0 : Fin 1) (0 : Fin 1))) := by
  unfold outBlock rowScore
  rw [maximumf_apply, addf_apply, lane_sum, bcast_scalar, broadcast_apply]
  simp only [extf_apply, mulf_apply, activation_apply, bcast_lane, truncf_apply, cast_lane]
  exact congrArg (max _) Ideal.ofBits_zero_f32

/-- The body's last payload is these stages composed (its local names substituted). -/
theorem pay12_eq (v11 v13 v15 v17 : FVec Ideal S1x128 .f32) (v19 : FVec Ideal S1x1 .f32) (v22 : FVec Ideal S64x128 .f32)
    (v23 : FVec Ideal S256x128 .f32) (v31 : FVec Ideal S16384x128 .f32) :
    k0_pay12 v11 v13 v15 v17 v19 v22 v23 v31 = outBlock (hiddenBlock v22 v23 v31 v11) v13 v15 v17 v19 := rfl

end Cert.KernelRow

end
-- ==== Proof.KernelDots.lean ====
/-
  The body's three matrix products, read at an entry.

  The x block [64, 128] and the y block [256, 128] of a grid point are multiplied by the first two bands of W1; the
  third product takes, for every pair (n, m), the row |x[n, :] − y[m, :]| — the pair grid [64, 256, 128] of absolute
  differences flattened to [16384, 128], pair (n, m) at row n·256 + m — times the third band. Each product accumulates
  into zero, so an entry is the plain sum over the contracted axis d of the products of extended reals; |a| is
  `max a (−a)`, and the changes of float format on the way in are the identity.
-/
import proofs.«147647_j1460288881502_2_alg».proof.Proof.Gen.KernelIdeal.Skeleton
import proofs.«147647_j1460288881502_2_alg».proof.Proof.BlockLayout
import Idealize.ShloMosaic.PureOps.Ideal.Laws

noncomputable section

open scoped BigOperators

namespace Cert.KernelDots

open Cert.KernelIdeal Cert.KernelIdeal.Gen Idealize.ShloMosaic Idealize.ShloMosaic.ValueIdx Cert.BlockLayout

/-! ## A product with one contracted axis, at an entry -/

/-! ### The [64, 128] × [128, 128] product -/

theorem lhs_row_x (j : S64x128.Idx) (q : dot_S64x128_S128x128_S64x128_1_0_0_1_n_n.contr.Idx) : (dot_S64x128_S128x128_S64x128_1_0_0_1_n_n.lhsIdx j q 0).val = (j 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem lhs_contr_x (j : S64x128.Idx) (q : dot_S64x128_S128x128_S64x128_1_0_0_1_n_n.contr.Idx) : (dot_S64x128_S128x128_S64x128_1_0_0_1_n_n.lhsIdx j q 1).val = (q ⟨0, by decide⟩).val :=
  dot_S64x128_S128x128_S64x128_1_0_0_1_n_n.lhsIdx_val_of_single rfl j q
theorem rhs_contr_x (j : S64x128.Idx) (q : dot_S64x128_S128x128_S64x128_1_0_0_1_n_n.contr.Idx) : (dot_S64x128_S128x128_S64x128_1_0_0_1_n_n.rhsIdx j q 0).val = (q ⟨0, by decide⟩).val :=
  dot_S64x128_S128x128_S64x128_1_0_0_1_n_n.rhsIdx_val_of_single rfl j q
theorem rhs_col_x (j : S64x128.Idx) (q : dot_S64x128_S128x128_S64x128_1_0_0_1_n_n.contr.Idx) : (dot_S64x128_S128x128_S64x128_1_0_0_1_n_n.rhsIdx j q 1).val = (j 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

/-- Into the zero accumulator, entry (r, k) of the product is the sum over d of row r of the left factor times
    column k of the right one. -/
theorem product_x (L : FVec Ideal S64x128 .bf16) (R : FVec Ideal S128x128 .bf16) (r : Fin 64) (k : Fin 128) :
    matmul dot_S64x128_S128x128_S64x128_1_0_0_1_n_n none L R (constant S64x128 .f32 0x00000000#32) (ix2 r k) = ∑ d : Fin 128, L (ix2 r d) * R (ix2 d k) := by
  simp only [matmul]
  rw [Ideal.matmul_constant_zero_apply, ← Equiv.sum_comp (contrEquiv1 dot_S64x128_S128x128_S64x128_1_0_0_1_n_n 128 rfl rfl).symm]
  refine Finset.sum_congr rfl fun d _ => ?_
  have hd := contrEquiv1_symm_val dot_S64x128_S128x128_S64x128_1_0_0_1_n_n 128 rfl rfl d
  have el : dot_S64x128_S128x128_S64x128_1_0_0_1_n_n.lhsIdx (ix2 r k) ((contrEquiv1 dot_S64x128_S128x128_S64x128_1_0_0_1_n_n 128 rfl rfl).symm d) = ix2 r d := funext fun a => Fin.ext (by
    match a with
    | ⟨0, _⟩ => exact lhs_row_x _ _
    | ⟨1, _⟩ => exact (lhs_contr_x _ _).trans hd)
  have er : dot_S64x128_S128x128_S64x128_1_0_0_1_n_n.rhsIdx (ix2 r k) ((contrEquiv1 dot_S64x128_S128x128_S64x128_1_0_0_1_n_n 128 rfl rfl).symm d) = ix2 d k := funext fun a => Fin.ext (by
    match a with
    | ⟨0, _⟩ => exact (rhs_contr_x _ _).trans hd
    | ⟨1, _⟩ => exact rhs_col_x _ _)
  rw [el, er]

/-! ### The [256, 128] × [128, 128] product -/

theorem lhs_row_y (j : S256x128.Idx) (q : dot_S256x128_S128x128_S256x128_1_0_0_1_n_n.contr.Idx) : (dot_S256x128_S128x128_S256x128_1_0_0_1_n_n.lhsIdx j q 0).val = (j 0).val := by
  unfold DotDims.lhsIdx
  rw [dif_neg (show ¬(0 : Fin S256x128.rank) ∈ dot_S256x128_S128x128_S256x128_1_0_0_1_n_n.lhsBatch by decide), dif_pos (show (0 : Fin S256x128.rank) ∈ dot_S256x128_S128x128_S256x128_1_0_0_1_n_n.lhsNonContracting by decide)]
  rfl
theorem lhs_contr_y (j : S256x128.Idx) (q : dot_S256x128_S128x128_S256x128_1_0_0_1_n_n.contr.Idx) : (dot_S256x128_S128x128_S256x128_1_0_0_1_n_n.lhsIdx j q 1).val = (q ⟨0, by decide⟩).val :=
  dot_S256x128_S128x128_S256x128_1_0_0_1_n_n.lhsIdx_val_of_single rfl j q
theorem rhs_contr_y (j : S256x128.Idx) (q : dot_S256x128_S128x128_S256x128_1_0_0_1_n_n.contr.Idx) : (dot_S256x128_S128x128_S256x128_1_0_0_1_n_n.rhsIdx j q 0).val = (q ⟨0, by decide⟩).val :=
  dot_S256x128_S128x128_S256x128_1_0_0_1_n_n.rhsIdx_val_of_single rfl j q
theorem rhs_col_y (j : S256x128.Idx) (q : dot_S256x128_S128x128_S256x128_1_0_0_1_n_n.contr.Idx) : (dot_S256x128_S128x128_S256x128_1_0_0_1_n_n.rhsIdx j q 1).val = (j 1).val := by
  unfold DotDims.rhsIdx
  rw [dif_neg (show ¬(1 : Fin S128x128.rank) ∈ dot_S256x128_S128x128_S256x128_1_0_0_1_n_n.rhsBatch by decide), dif_pos (show (1 : Fin S128x128.rank) ∈ dot_S256x128_S128x128_S256x128_1_0_0_1_n_n.rhsNonContracting by decide)]
  rfl

/-- Into the zero accumulator, entry (r, k) of the product is the sum over d of row r of the left factor times
    column k of the right one. -/
theorem product_y (L : FVec Ideal S256x128 .bf16) (R : FVec Ideal S128x128 .bf16) (r : Fin 256) (k : Fin 128) :
    matmul dot_S256x128_S128x128_S256x128_1_0_0_1_n_n none L R (constant S256x128 .f32 0x00000000#32) (ix2 r k) = ∑ d : Fin 128, L (ix2 r d) * R (ix2 d k) := by
  simp only [matmul]
  rw [Ideal.matmul_constant_zero_apply, ← Equiv.sum_comp (contrEquiv1 dot_S256x128_S128x128_S256x128_1_0_0_1_n_n 128 rfl rfl).symm]
  refine Finset.sum_congr rfl fun d _ => ?_
  have hd := contrEquiv1_symm_val dot_S256x128_S128x128_S256x128_1_0_0_1_n_n 128 rfl rfl d
  have el : dot_S256x128_S128x128_S256x128_1_0_0_1_n_n.lhsIdx (ix2 r k) ((contrEquiv1 dot_S256x128_S128x128_S256x128_1_0_0_1_n_n 128 rfl rfl).symm d) = ix2 r d := funext fun a => Fin.ext (by
    match a with
    | ⟨0, _⟩ => exact lhs_row_y _ _
    | ⟨1, _⟩ => exact (lhs_contr_y _ _).trans hd)
  have er : dot_S256x128_S128x128_S256x128_1_0_0_1_n_n.rhsIdx (ix2 r k) ((contrEquiv1 dot_S256x128_S128x128_S256x128_1_0_0_1_n_n 128 rfl rfl).symm d) = ix2 d k := funext fun a => Fin.ext (by
    match a with
    | ⟨0, _⟩ => exact (rhs_contr_y _ _).trans hd
    | ⟨1, _⟩ => exact rhs_col_y _ _)
  rw [el, er]

/-! ### The [16384, 128] × [128, 128] product -/

theorem lhs_row_pair (j : S16384x128.Idx) (q : dot_S16384x128_S128x128_S16384x128_1_0_0_1_n_n.contr.Idx) : (dot_S16384x128_S128x128_S16384x128_1_0_0_1_n_n.lhsIdx j q 0).val = (j 0).val := by
  unfold DotDims.lhsIdx
  rw [dif_neg (show ¬(0 : Fin S16384x128.rank) ∈ dot_S16384x128_S128x128_S16384x128_1_0_0_1_n_n.lhsBatch by decide), dif_pos (show (0 : Fin S16384x128.rank) ∈ dot_S16384x128_S128x128_S16384x128_1_0_0_1_n_n.lhsNonContracting by decide)]
  rfl
theorem lhs_contr_pair (j : S16384x128.Idx) (q : dot_S16384x128_S128x128_S16384x128_1_0_0_1_n_n.contr.Idx) : (dot_S16384x128_S128x128_S16384x128_1_0_0_1_n_n.lhsIdx j q 1).val = (q ⟨0, by decide⟩).val :=
  dot_S16384x128_S128x128_S16384x128_1_0_0_1_n_n.lhsIdx_val_of_single rfl j q
theorem rhs_contr_pair (j : S16384x128.Idx) (q : dot_S16384x128_S128x128_S16384x128_1_0_0_1_n_n.contr.Idx) : (dot_S16384x128_S128x128_S16384x128_1_0_0_1_n_n.rhsIdx j q 0).val = (q ⟨0, by decide⟩).val :=
  dot_S16384x128_S128x128_S16384x128_1_0_0_1_n_n.rhsIdx_val_of_single rfl j q
theorem rhs_col_pair (j : S16384x128.Idx) (q : dot_S16384x128_S128x128_S16384x128_1_0_0_1_n_n.contr.Idx) : (dot_S16384x128_S128x128_S16384x128_1_0_0_1_n_n.rhsIdx j q 1).val = (j 1).val := by
  unfold DotDims.rhsIdx
  rw [dif_neg (show ¬(1 : Fin S128x128.rank) ∈ dot_S16384x128_S128x128_S16384x128_1_0_0_1_n_n.rhsBatch by decide), dif_pos (show (1 : Fin S128x128.rank) ∈ dot_S16384x128_S128x128_S16384x128_1_0_0_1_n_n.rhsNonContracting by decide)]
  rfl

/-- Into the zero accumulator, entry (r, k) of the product is the sum over d of row r of the left factor times
    column k of the right one. -/
theorem product_pair (L : FVec Ideal S16384x128 .bf16) (R : FVec Ideal S128x128 .bf16) (r : Fin 16384) (k : Fin 128) :
    matmul dot_S16384x128_S128x128_S16384x128_1_0_0_1_n_n none L R (constant S16384x128 .f32 0x00000000#32) (ix2 r k) = ∑ d : Fin 128, L (ix2 r d) * R (ix2 d k) := by
  simp only [matmul]
  rw [Ideal.matmul_constant_zero_apply, ← Equiv.sum_comp (contrEquiv1 dot_S16384x128_S128x128_S16384x128_1_0_0_1_n_n 128 rfl rfl).symm]
  refine Finset.sum_congr rfl fun d _ => ?_
  have hd := contrEquiv1_symm_val dot_S16384x128_S128x128_S16384x128_1_0_0_1_n_n 128 rfl rfl d
  have el : dot_S16384x128_S128x128_S16384x128_1_0_0_1_n_n.lhsIdx (ix2 r k) ((contrEquiv1 dot_S16384x128_S128x128_S16384x128_1_0_0_1_n_n 128 rfl rfl).symm d) = ix2 r d := funext fun a => Fin.ext (by
    match a with
    | ⟨0, _⟩ => exact lhs_row_pair _ _
    | ⟨1, _⟩ => exact (lhs_contr_pair _ _).trans hd)
  have er : dot_S16384x128_S128x128_S16384x128_1_0_0_1_n_n.rhsIdx (ix2 r k) ((contrEquiv1 dot_S16384x128_S128x128_S16384x128_1_0_0_1_n_n 128 rfl rfl).symm d) = ix2 d k := funext fun a => Fin.ext (by
    match a with
    | ⟨0, _⟩ => exact (rhs_contr_pair _ _).trans hd
    | ⟨1, _⟩ => exact rhs_col_pair _ _)
  rw [el, er]

/-! ## The body's payloads -/

/-- The x block with its unit axis dropped. -/
theorem xrows_apply (x0 : Vec Ideal S1x64x128 .f32) (n : Fin 64) (d : Fin 128) : k0_pay7 x0 (ix2 n d) = x0 (ix3 (0 : Fin 1) n d) := by
  unfold k0_pay7
  rw [truncf_apply, cast_xblock]

/-- The y block with its unit axis dropped. -/
theorem yrows_apply (x1 : Vec Ideal S1x256x128 .f32) (m : Fin 256) (d : Fin 128) : k0_pay8 x1 (ix2 m d) = x1 (ix3 (0 : Fin 1) m d) := by
  unfold k0_pay8
  rw [truncf_apply, cast_yblock]

/-- The x rows times the first band. -/
theorem xproj_apply (x0 : Vec Ideal S1x64x128 .f32) (w : Vec Ideal S128x128 .bf16) (n : Fin 64) (k : Fin 128) :
    k0_pay9 x0 w (ix2 n k) = ∑ d : Fin 128, x0 (ix3 (0 : Fin 1) n d) * w (ix2 d k) := by
  unfold k0_pay9
  rw [product_x, shapeCast_self]
  simp only [xrows_apply]

/-- The y rows times the second band. -/
theorem yproj_apply (x1 : Vec Ideal S1x256x128 .f32) (w : Vec Ideal S128x128 .bf16) (m : Fin 256) (k : Fin 128) :
    k0_pay10 x1 w (ix2 m k) = ∑ d : Fin 128, x1 (ix3 (0 : Fin 1) m d) * w (ix2 d k) := by
  unfold k0_pay10
  rw [product_y, shapeCast_self]
  simp only [yrows_apply]

/-- The absolute differences of the pair (n, m) times the third band. -/
theorem dproj_apply (x0 : Vec Ideal S1x64x128 .f32) (x1 : Vec Ideal S1x256x128 .f32) (w : Vec Ideal S128x128 .bf16)
    (n : Fin 64) (m : Fin 256) (k : Fin 128) :
    k0_pay11 x0 x1 w (ix2 (pairRow n m) k)
      = ∑ d : Fin 128, max (x0 (ix3 (0 : Fin 1) n d) - x1 (ix3 (0 : Fin 1) m d)) (-(x0 (ix3 (0 : Fin 1) n d) - x1 (ix3 (0 : Fin 1) m d)))
          * w (ix2 d k) := by
  unfold k0_pay11
  rw [product_pair, shapeCast_self]
  refine Finset.sum_congr rfl fun d _ => ?_
  rw [cast_flat]
  rw [absf_apply, subf_apply, bcast_xrow, cast_xrow, xrows_apply, bcast_yrow, cast_yrow, yrows_apply]

end Cert.KernelDots

end
-- ==== Proof.KernelBlock.lean ====
/-
  The kernel's body at one entry of a grid point's output block.

  The body loads ten blocks — 64 rows of x, 256 rows of y, the three bands of W1, and the rows b1, γ, β, W2ᵀ and the
  scalar b2 — and stores one [1, 64, 256] block. Its entry (0, n, m) is the specification's `rowScore` of the hidden
  row of the pair (row n of the x block, row m of the y block): the three products are sums over d of the loaded
  entries, the hidden block adds them with b1 in the same grouping, and the rest is the row function.
-/
import proofs.«147647_j1460288881502_2_alg».proof.Proof.KernelRow
import proofs.«147647_j1460288881502_2_alg».proof.Proof.KernelDots

noncomputable section

open scoped BigOperators

namespace Cert.KernelBlock

open Cert.KernelIdeal Cert.KernelIdeal.Gen Idealize.ShloMosaic Idealize.ShloMosaic.ValueIdx
open Cert.PairSpec Cert.BlockLayout Cert.KernelRow Cert.KernelDots

/-- The stored block's entry (0, n, m) as a function of the ten loaded blocks. -/
theorem body_entry (x0 : Vec Ideal S1x64x128 .f32) (x1 : Vec Ideal S1x256x128 .f32) (wx wy wd : Vec Ideal S128x128 .bf16)
    (b1 g be w2 : Vec Ideal S1x128 .f32) (b2 : Vec Ideal S1x1 .f32) (n : Fin 64) (m : Fin 256) :
    k0_pay1 (k0_pay12 (k0_pay2 b1) (k0_pay3 g) (k0_pay4 be) (k0_pay5 w2) (k0_pay6 b2) (k0_pay9 x0 wx) (k0_pay10 x1 wy)
        (k0_pay11 x0 x1 wd)) (ix3 (0 : Fin 1) n m)
      = rowScore
          (hiddenRow (fun d => x0 (ix3 (0 : Fin 1) n d)) (fun d => x1 (ix3 (0 : Fin 1) m d))
            (fun d k => wx (ix2 d k)) (fun d k => wy (ix2 d k)) (fun d k => wd (ix2 d k)) (fun k => b1 (ix2 (0 : Fin 1) k)))
          (fun k => g (ix2 (0 : Fin 1) k)) (fun k => be (ix2 (0 : Fin 1) k)) (fun k => w2 (ix2 (0 : Fin 1) k))
          (b2 (ix2 (0 : Fin 1) (0 : Fin 1))) := by
  have e2 : ∀ i, k0_pay2 b1 i = b1 i := fun i => by unfold k0_pay2; rw [shapeCast_self]
  have e3 : ∀ i, k0_pay3 g i = g i := fun i => by unfold k0_pay3; rw [shapeCast_self]
  have e4 : ∀ i, k0_pay4 be i = be i := fun i => by unfold k0_pay4; rw [shapeCast_self]
  have e5 : ∀ i, k0_pay5 w2 i = w2 i := fun i => by unfold k0_pay5; rw [shapeCast_self]
  have e6 : ∀ i, k0_pay6 b2 i = b2 i := fun i => by unfold k0_pay6; rw [shapeCast_self]
  unfold k0_pay1
  rw [cast_outblock, pay12_eq, outBlock_apply]
  simp only [hiddenBlock_apply, xproj_apply, yproj_apply, dproj_apply, e2, e3, e4, e5, e6]
  rfl

end Cert.KernelBlock

end
-- ==== Proof.LibRunAnd.lean ====
/-
  Two facts about every execution of one program from one state hold together.

  `θ_run defs p s Q` says: every weakly fair execution of `p` from `s` terminates, without a fault, in a state
  satisfying `Q`. Termination and absence of faults do not mention `Q`, and a final state reached satisfies both posts
  if it satisfies each: so two such statements about the same program and state give the statement for the conjunction.
-/
import Idealize.ShloMosaic.Machine.Run

namespace Cert.RunAnd

open Idealize.ShloMosaic Idealize.SL.Sem

variable {nD : Nat} {τ : Topo} {sig : RefSig} {Val : EltTy → Type} {Λ : Labels}

/-- If every weakly fair execution of `p` from `s` ends in `Q`, and every one ends in `Q'`, then every one ends in
    `Q ∧ Q'`. General: any mesh, signature, value type and body table. -/
theorem θ_run_and (defs : Defs nD τ sig Val Λ) (p : (c : Thread nD τ) → Prog (TpuEff nD τ sig Val Λ c.2) PUnit)
    (s : MemSt nD τ sig Val) {Q Q' : PUnit × MemSt nD τ sig Val → Prop}
    (h : θ_run defs p s Q) (h' : θ_run defs p s Q') : θ_run defs p s (fun r => Q r ∧ Q' r) := by
  have h1 : MeshRun defs (fun m' => Q (⟨⟩, m')) (load p s) := h
  have h2 : MeshRun defs (fun m' => Q' (⟨⟩, m')) (load p s) := h'
  exact (⟨fun t ht hf => ⟨h1.post t ht hf, h2.post t ht hf⟩, h1.progress, h1.fair⟩ :
    MeshRun defs (fun m' => Q (⟨⟩, m') ∧ Q' (⟨⟩, m')) (load p s))

end Cert.RunAnd
-- ==== Proof.KernelArray.lean ====
/-
  From a grid point's block to the whole output array, and the kernel's run.

  The grid is (batch b, block of 64 rows of x, block of 256 rows of y): point (b, ni, mi) reads rows
  ni·64 … ni·64 + 63 of x[b], rows mi·256 … mi·256 + 255 of y[b] and the whole of every small operand, and writes
  the block of the output at (b, ni·64 + n, mi·256 + m). The small operands are what the host made of the arguments
  before the launch: the three 128-row bands of W1 (rows d, 128 + d, 256 + d), and b1, γ, β, W2 (its one column laid
  as a row) and b2 with a unit axis added. So entry (0, n, m) of the block a point writes is the specification's entry
  (b, ni·64 + n, mi·256 + m); the 64 blocks tile the [4, 512, 512] array (the point that covers (b, i, j) is
  (b, i / 64, j / 256)); hence the array ends at the specification's `result` of the eight arguments.
-/
import proofs.«147647_j1460288881502_2_alg».proof.Proof.Gen.KernelIdeal.Frame
import proofs.«147647_j1460288881502_2_alg».proof.Proof.KernelBlock
import proofs.«147647_j1460288881502_2_alg».proof.Proof.LibRunAnd
import Idealize.ShloMosaic.Lib.Pipeline.Value
import Idealize.ShloMosaic.Lib.StableHlo.Run

noncomputable section

open scoped BigOperators

namespace Cert.KernelArray

open Cert.KernelIdeal Cert.KernelIdeal.Gen Idealize.ShloMosaic Idealize.ShloMosaic.TcCoe Idealize.SL.Sem
open Idealize.ShloMosaic.StableHlo Idealize.ShloMosaic.ValueIdx
open Cert.PairSpec Cert.BlockLayout Cert.KernelBlock
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## What the host made of the arguments before the launch -/

theorem V_wx (c : Dev nD) : (V m c main_v1 : S128x128.Idx → Elt Ideal .bf16)
    = truncf (F := Ideal) .bf16 (extractStridedSlice S128x128 ![0, 0] ((m ((c : Thread nD τ).loc main_arg2)) : FVec Ideal S384x128 .f32) slices_S384x128_S128x128_0_0) bitsLt_bf16_f32 := by
  dsimp only [Gen.V, Gen.hostOps0]; after_results
theorem V_wy (c : Dev nD) : (V m c main_v3 : S128x128.Idx → Elt Ideal .bf16)
    = truncf (F := Ideal) .bf16 (extractStridedSlice S128x128 ![128, 0] ((m ((c : Thread nD τ).loc main_arg2)) : FVec Ideal S384x128 .f32) slices_S384x128_S128x128_128_0) bitsLt_bf16_f32 := by
  dsimp only [Gen.V, Gen.hostOps0]; after_results
theorem V_wd (c : Dev nD) : (V m c main_v5 : S128x128.Idx → Elt Ideal .bf16)
    = truncf (F := Ideal) .bf16 (extractStridedSlice S128x128 ![256, 0] ((m ((c : Thread nD τ).loc main_arg2)) : FVec Ideal S384x128 .f32) slices_S384x128_S128x128_256_0) bitsLt_bf16_f32 := by
  dsimp only [Gen.V, Gen.hostOps0]; after_results
theorem V_b1 (c : Dev nD) : (V m c main_v6 : S1x128.Idx → Elt Ideal .f32)
    = shapeCast S1x128 (m ((c : Thread nD τ).loc main_arg3)) shapeCasts_S128_S1x128 := by
  dsimp only [Gen.V, Gen.hostOps0]; after_results; rfl
theorem V_gamma (c : Dev nD) : (V m c main_v7 : S1x128.Idx → Elt Ideal .f32)
    = shapeCast S1x128 (m ((c : Thread nD τ).loc main_arg4)) shapeCasts_S128_S1x128 := by
  dsimp only [Gen.V, Gen.hostOps0]; after_results; rfl
theorem V_beta (c : Dev nD) : (V m c main_v8 : S1x128.Idx → Elt Ideal .f32)
    = shapeCast S1x128 (m ((c : Thread nD τ).loc main_arg5)) shapeCasts_S128_S1x128 := by
  dsimp only [Gen.V, Gen.hostOps0]; after_results; rfl
theorem V_w2 (c : Dev nD) : (V m c main_v9 : S1x128.Idx → Elt Ideal .f32)
    = shapeCast S1x128 (m ((c : Thread nD τ).loc main_arg6)) shapeCasts_S128x1_S1x128 := by
  dsimp only [Gen.V, Gen.hostOps0]; after_results; rfl
theorem V_b2 (c : Dev nD) : (V m c main_v10 : S1x1.Idx → Elt Ideal .f32)
    = shapeCast S1x1 (m ((c : Thread nD τ).loc main_arg7)) shapeCasts_S1_S1x1 := by
  dsimp only [Gen.V, Gen.hostOps0]; after_results; rfl

/-! ## The printed index maps, decided over the 64 grid points -/

/-- The x window moves with the output's batch and row-block coordinates. -/
theorem idx_x : ∀ t : Fin cfg0.N, win0_0.index t (0 : Fin 3) = win0_10.index t (0 : Fin 3)
    ∧ win0_0.index t (1 : Fin 3) = win0_10.index t (1 : Fin 3) ∧ win0_0.index t (2 : Fin 3) = 0 :=
  (by decide +kernel : ∀ t : Fin grid0.N, _)
/-- The y window moves with the output's batch and column-block coordinates. -/
theorem idx_y : ∀ t : Fin cfg0.N, win0_1.index t (0 : Fin 3) = win0_10.index t (0 : Fin 3)
    ∧ win0_1.index t (1 : Fin 3) = win0_10.index t (2 : Fin 3) ∧ win0_1.index t (2 : Fin 3) = 0 :=
  (by decide +kernel : ∀ t : Fin grid0.N, _)
/-- Every small operand is one block, at index (0, 0), at every point. -/
theorem idx_fixed : ∀ t : Fin cfg0.N, (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)
/-- The output's block indices range over 4 batches, 8 row blocks and 2 column blocks. -/
theorem idx_bounds : ∀ t : Fin cfg0.N, win0_10.index t (0 : Fin 3) < 4 ∧ win0_10.index t (1 : Fin 3) < 8
    ∧ win0_10.index t (2 : Fin 3) < 2 :=
  (by decide +kernel : ∀ t : Fin grid0.N, _)
/-- Every such block is some point's. -/
theorem idx_onto : ∀ (q0 : Fin 4) (q1 : Fin 8) (q2 : Fin 2), ∃ t : Fin cfg0.N, win0_10.index t = ![q0.val, q1.val, q2.val] :=
  (by decide +kernel : ∀ (q0 : Fin 4) (q1 : Fin 8) (q2 : Fin 2), ∃ t : Fin grid0.N, win0_10.index t = ![q0.val, q1.val, q2.val])

/-- The batch a point works on. -/
abbrev ptB (t : Fin cfg0.N) : Fin 4 := ⟨win0_10.index t (0 : Fin 3), (idx_bounds t).1⟩
/-- Row `n` of a point's x block, as a row of x. -/
abbrev ptN (t : Fin cfg0.N) (n : Fin 64) : Fin 512 :=
  ⟨win0_10.index t (1 : Fin 3) * 64 + n.val, by have := (idx_bounds t).2.1; have := n.isLt; omega⟩
/-- Row `mm` of a point's y block, as a row of y. -/
abbrev ptM (t : Fin cfg0.N) (mm : Fin 256) : Fin 512 :=
  ⟨win0_10.index t (2 : Fin 3) * 256 + mm.val, by have := (idx_bounds t).2.2; have := mm.isLt; omega⟩

/-! ## Each window's block at a point, read at an entry -/

theorem out_emb (t : Fin cfg0.N) (n : Fin 64) (mm : Fin 256) :
    ((cfg0.win 10).blk t).view.emb (ix3 (0 : Fin 1) n mm) = ix3 (ptB t) (ptN t n) (ptM t mm) := by
  funext a; apply Fin.ext
  match a with
  | ⟨0, _⟩ => show win0_10.index t (0 : Fin 3) * 1 + 1 * 0 = win0_10.index t (0 : Fin 3); omega
  | ⟨1, _⟩ => show win0_10.index t (1 : Fin 3) * 64 + 1 * n.val = win0_10.index t (1 : Fin 3) * 64 + n.val; omega
  | ⟨2, _⟩ => show win0_10.index t (2 : Fin 3) * 256 + 1 * mm.val = win0_10.index t (2 : Fin 3) * 256 + mm.val; omega

theorem x_apply (c : Dev nD) (t : Fin cfg0.N) (n : Fin 64) (d : Fin 128) :
    (iblk m c 0 t : Vec Ideal S1x64x128 .f32) (ix3 (0 : Fin 1) n d) = (m ((c : Thread nD τ).loc main_arg0)) (ix3 (ptB t) (ptN t n) d) := by
  obtain ⟨e0, e1, e2⟩ := idx_x t
  unfold iblk
  rw [View.read_apply]
  show V m c main_arg0 _ = _
  rw [V_main_arg0]
  refine congrArg _ (funext fun a => Fin.ext ?_)
  match a with
  | ⟨0, _⟩ => show win0_0.index t (0 : Fin 3) * 1 + 1 * 0 = win0_10.index t (0 : Fin 3); omega
  | ⟨1, _⟩ => show win0_0.index t (1 : Fin 3) * 64 + 1 * n.val = win0_10.index t (1 : Fin 3) * 64 + n.val; omega
  | ⟨2, _⟩ => show win0_0.index t (2 : Fin 3) * 128 + 1 * d.val = d.val; omega

theorem y_apply (c : Dev nD) (t : Fin cfg0.N) (mm : Fin 256) (d : Fin 128) :
    (iblk m c 1 t : Vec Ideal S1x256x128 .f32) (ix3 (0 : Fin 1) mm d) = (m ((c : Thread nD τ).loc main_arg1)) (ix3 (ptB t) (ptM t mm) d) := by
  obtain ⟨e0, e1, e2⟩ := idx_y t
  unfold iblk
  rw [View.read_apply]
  show V m c main_arg1 _ = _
  rw [V_main_arg1]
  refine congrArg _ (funext fun a => Fin.ext ?_)
  match a with
  | ⟨0, _⟩ => show win0_1.index t (0 : Fin 3) * 1 + 1 * 0 = win0_10.index t (0 : Fin 3); omega
  | ⟨1, _⟩ => show win0_1.index t (1 : Fin 3) * 256 + 1 * mm.val = win0_10.index t (2 : Fin 3) * 256 + mm.val; omega
  | ⟨2, _⟩ => show win0_1.index t (2 : Fin 3) * 128 + 1 * d.val = d.val; omega

theorem wx_apply (c : Dev nD) (t : Fin cfg0.N) (d k : Fin 128) :
    (iblk m c 2 t : Vec Ideal S128x128 .bf16) (ix2 d k) = (m ((c : Thread nD τ).loc main_arg2)) (ix2 (bandX d) k) := by
  obtain ⟨⟨a2, b2⟩, ⟨a3, b3⟩, ⟨a4, b4⟩, -⟩ := idx_fixed t
  unfold iblk
  rw [View.read_apply]
  show V m c main_v1 _ = _
  rw [V_wx, truncf_apply]
  refine extractStridedSlice_apply _ _ _ _ _ fun a => ?_
  match a with
  | ⟨0, _⟩ => show d.val = 0 + (win0_2.index t (0 : Fin 2) * 128 + 1 * d.val); omega
  | ⟨1, _⟩ => show k.val = 0 + (win0_2.index t (1 : Fin 2) * 128 + 1 * k.val); omega

theorem wy_apply (c : Dev nD) (t : Fin cfg0.N) (d k : Fin 128) :
    (iblk m c 3 t : Vec Ideal S128x128 .bf16) (ix2 d k) = (m ((c : Thread nD τ).loc main_arg2)) (ix2 (bandY d) k) := by
  obtain ⟨⟨a2, b2⟩, ⟨a3, b3⟩, ⟨a4, b4⟩, -⟩ := idx_fixed t
  unfold iblk
  rw [View.read_apply]
  show V m c main_v3 _ = _
  rw [V_wy, truncf_apply]
  refine extractStridedSlice_apply _ _ _ _ _ fun a => ?_
  match a with
  | ⟨0, _⟩ => show 128 + d.val = 128 + (win0_3.index t (0 : Fin 2) * 128 + 1 * d.val); omega
  | ⟨1, _⟩ => show k.val = 0 + (win0_3.index t (1 : Fin 2) * 128 + 1 * k.val); omega

theorem wd_apply (c : Dev nD) (t : Fin cfg0.N) (d k : Fin 128) :
    (iblk m c 4 t : Vec Ideal S128x128 .bf16) (ix2 d k) = (m ((c : Thread nD τ).loc main_arg2)) (ix2 (bandD d) k) := by
  obtain ⟨⟨a2, b2⟩, ⟨a3, b3⟩, ⟨a4, b4⟩, -⟩ := idx_fixed t
  unfold iblk
  rw [View.read_apply]
  show V m c main_v5 _ = _
  rw [V_wd, truncf_apply]
  refine extractStridedSlice_apply _ _ _ _ _ fun a => ?_
  match a with
  | ⟨0, _⟩ => show 256 + d.val = 256 + (win0_4.index t (0 : Fin 2) * 128 + 1 * d.val); omega
  | ⟨1, _⟩ => show k.val = 0 + (win0_4.index t (1 : Fin 2) * 128 + 1 * k.val); omega

theorem b1_apply (c : Dev nD) (t : Fin cfg0.N) (k : Fin 128) :
    (iblk m c 5 t : Vec Ideal S1x128 .f32) (ix2 (0 : Fin 1) k) = (m ((c : Thread nD τ).loc main_arg3)) (ix1 k) := by
  obtain ⟨-, -, -, ⟨a5, b5⟩, ⟨a6, b6⟩, ⟨a7, b7⟩, -⟩ := idx_fixed t
  unfold iblk
  rw [View.read_apply]
  show V m c main_v6 _ = _
  rw [V_b1]
  refine shapeCast_apply (s := S128) (t := S1x128) _ _ _ (ix1 k) ?_
  rw [Shape.rowMajor_val_one, Shape.rowMajor_val_two]
  show k.val = (win0_5.index t (0 : Fin 2) * 1 + 1 * 0) * 128 + (win0_5.index t (1 : Fin 2) * 128 + 1 * k.val); omega

theorem gamma_apply (c : Dev nD) (t : Fin cfg0.N) (k : Fin 128) :
    (iblk m c 6 t : Vec Ideal S1x128 .f32) (ix2 (0 : Fin 1) k) = (m ((c : Thread nD τ).loc main_arg4)) (ix1 k) := by
  obtain ⟨-, -, -, ⟨a5, b5⟩, ⟨a6, b6⟩, ⟨a7, b7⟩, -⟩ := idx_fixed t
  unfold iblk
  rw [View.read_apply]
  show V m c main_v7 _ = _
  rw [V_gamma]
  refine shapeCast_apply (s := S128) (t := S1x128) _ _ _ (ix1 k) ?_
  rw [Shape.rowMajor_val_one, Shape.rowMajor_val_two]
  show k.val = (win0_6.index t (0 : Fin 2) * 1 + 1 * 0) * 128 + (win0_6.index t (1 : Fin 2) * 128 + 1 * k.val); omega

theorem beta_apply (c : Dev nD) (t : Fin cfg0.N) (k : Fin 128) :
    (iblk m c 7 t : Vec Ideal S1x128 .f32) (ix2 (0 : Fin 1) k) = (m ((c : Thread nD τ).loc main_arg5)) (ix1 k) := by
  obtain ⟨-, -, -, ⟨a5, b5⟩, ⟨a6, b6⟩, ⟨a7, b7⟩, -⟩ := idx_fixed t
  unfold iblk
  rw [View.read_apply]
  show V m c main_v8 _ = _
  rw [V_beta]
  refine shapeCast_apply (s := S128) (t := S1x128) _ _ _ (ix1 k) ?_
  rw [Shape.rowMajor_val_one, Shape.rowMajor_val_two]
  show k.val = (win0_7.index t (0 : Fin 2) * 1 + 1 * 0) * 128 + (win0_7.index t (1 : Fin 2) * 128 + 1 * k.val); omega

theorem w2_apply (c : Dev nD) (t : Fin cfg0.N) (k : Fin 128) :
    (iblk m c 8 t : Vec Ideal S1x128 .f32) (ix2 (0 : Fin 1) k) = (m ((c : Thread nD τ).loc main_arg6)) (ix2 k (0 : Fin 1)) := by
  obtain ⟨-, -, -, -, -, -, ⟨a8, b8⟩, -⟩ := idx_fixed t
  unfold iblk
  rw [View.read_apply]
  show V m c main_v9 _ = _
  rw [V_w2]
  refine shapeCast_apply (s := S128x1) (t := S1x128) _ _ _ (ix2 k (0 : Fin 1)) ?_
  rw [Shape.rowMajor_val_two, Shape.rowMajor_val_two]
  show k.val * 1 + 0 = (win0_8.index t (0 : Fin 2) * 1 + 1 * 0) * 128 + (win0_8.index t (1 : Fin 2) * 128 + 1 * k.val); omega

theorem b2_apply (c : Dev nD) (t : Fin cfg0.N) :
    (iblk m c 9 t : Vec Ideal S1x1 .f32) (ix2 (0 : Fin 1) (0 : Fin 1)) = (m ((c : Thread nD τ).loc main_arg7)) (ix1 (0 : Fin 1)) := by
  obtain ⟨-, -, -, -, -, -, -, ⟨a9, b9⟩⟩ := idx_fixed t
  unfold iblk
  rw [View.read_apply]
  show V m c main_v10 _ = _
  rw [V_b2]
  refine shapeCast_apply (s := S1) (t := S1x1) _ _ _ (ix1 (0 : Fin 1)) ?_
  rw [Shape.rowMajor_val_one, Shape.rowMajor_val_two]
  show 0 = (win0_9.index t (0 : Fin 2) * 1 + 1 * 0) * 1 + (win0_9.index t (1 : Fin 2) * 1 + 1 * 0); omega

/-! ## What a point writes back, the cover, the array -/

/-- The specification's result of the launch memory's eight arguments. -/
abbrev spec (c : Dev nD) : (⟨3, ![4, 512, 512]⟩ : Shape).Idx → EReal :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- What point `t` writes back is block `t` of the specification's result. -/
theorem flushed_eq (c : Dev nD) (t : Fin cfg0.N) :
    (dats m 0 c).flushed 10 t = ((cfg0.win 10).blk t).view.read (Elt Ideal) (spec m c) := by
  show (cfg0.win 10).cut (grid0.coords t) ((dats m 0 c).after 10 t) = _
  rw [after0_10]
  unfold out0_10
  rw [View.canon_unit_zero hz3]
  simp only [View.ld_unit_zero (S := S1x64x128) hz3, View.ld_unit_zero (S := S1x256x128) hz3,
    View.ld_unit_zero (S := S128x128) hz2, View.ld_unit_zero (S := S1x128) hz2, View.ld_unit_zero (S := S1x1) hz2]
  funext y
  obtain ⟨n, mm, rfl⟩ : ∃ (n : Fin 64) (mm : Fin 256), y = ix3 (0 : Fin 1) n mm :=
    ⟨y 1, y 2, funext fun a => match a with
      | ⟨0, _⟩ => Fin.ext (by have h : (y 0).val < 1 := (y 0).isLt; show (y 0).val = 0; omega)
      | ⟨1, _⟩ => rfl
      | ⟨2, _⟩ => rfl⟩
  refine (body_entry (iblk m c 0 t) (iblk m c 1 t) (iblk m c 2 t) (iblk m c 3 t) (iblk m c 4 t) (iblk m c 5 t)
    (iblk m c 6 t) (iblk m c 7 t) (iblk m c 8 t) (iblk m c 9 t) n mm).trans ?_
  show _ = spec m c (((cfg0.win 10).blk t).view.emb (ix3 (0 : Fin 1) n mm))
  rw [out_emb]
  unfold spec
  rw [result_apply]
  unfold entry
  simp only [x_apply, y_apply, wx_apply, wy_apply, wd_apply, b1_apply, gamma_apply, beta_apply, w2_apply, b2_apply]

/-- An index of the output array is in point `t`'s block iff each coordinate is in the block's range on its axis. -/
theorem mem_blk (t : Fin cfg0.N) (i : S4x512x512.Idx) :
    i ∈ ((cfg0.win 10).blk t).view.set ↔ ∀ a : Fin 3, win0_10.index t a * S1x64x256.size a ≤ (i a).val
      ∧ (i a).val < win0_10.index t a * S1x64x256.size a + S1x64x256.size a := by
  show i ∈ ((View.whole main_v11).slice (win0_10.rect t)).set ↔ _
  rw [View.set_slice_whole, Rect.mem_set_unit]
  exact Iff.rfl

/-- The output array after the run is the specification's result: the blocks tile it. -/
theorem final (c : Dev nD) : (dats m 0 c).arrAt 10 cfg0.N = spec m c :=
  (dats m 0 c).arrAt_eq_of_cover 10 (spec m c) (fun t _ => flushed_eq m c t) fun i => by
    have h0 : (i 0).val < 4 := (i 0).isLt
    have h1 : (i 1).val < 512 := (i 1).isLt
    have h2 : (i 2).val < 512 := (i 2).isLt
    obtain ⟨t, ht⟩ := idx_onto ⟨(i 0).val, h0⟩ ⟨(i 1).val / 64, by omega⟩ ⟨(i 2).val / 256, by omega⟩
    have q0 : win0_10.index t (0 : Fin 3) = (i 0).val := congrFun ht 0
    have q1 : win0_10.index t (1 : Fin 3) = (i 1).val / 64 := congrFun ht 1
    have q2 : win0_10.index t (2 : Fin 3) = (i 2).val / 256 := congrFun ht 2
    refine ⟨t, flush0_10 t, ?_⟩
    rw [mem_blk]
    intro a
    match a with
    | ⟨0, _⟩ => show win0_10.index t (0 : Fin 3) * 1 ≤ (i 0).val ∧ (i 0).val < win0_10.index t (0 : Fin 3) * 1 + 1; omega
    | ⟨1, _⟩ => show win0_10.index t (1 : Fin 3) * 64 ≤ (i 1).val ∧ (i 1).val < win0_10.index t (1 : Fin 3) * 64 + 64; omega
    | ⟨2, _⟩ => show win0_10.index t (2 : Fin 3) * 256 ≤ (i 2).val ∧ (i 2).val < win0_10.index t (2 : Fin 3) * 256 + 256; omega

/-! ## The run -/

/-- Every weakly fair execution of the kernel's program ends with the output array at the specification's result. -/
theorem run_value : θ_run defs (onTc (τ := τ) (main (F := Ideal))) ⟨m, fun _ => 0, ρ⟩ fun r => ∀ c : Dev nD,
    r.2.mem ((c : Thread nD τ).loc main_v11) = spec m c :=
  (θ_run defs _ _).mono (fun r h c => ((h c).1 10).trans (final m c)) (run_main m ρ)

/-- … and, together with the frame, with the eight arguments unchanged. -/
theorem run : θ_run defs (onTc (τ := τ) (main (F := Ideal))) ⟨m, fun _ => 0, ρ⟩ fun r => ∀ c : Dev nD,
    r.2.mem ((c : Thread nD τ).loc main_v11) = spec m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) :=
  (θ_run defs _ _).mono (fun r h c => ⟨h.1 c, h.2 c⟩)
    (Cert.RunAnd.θ_run_and defs _ _ (run_value m ρ) (Gen.frame m ρ))

end Cert.KernelArray

end
-- ==== Proof.RefEntry.lean ====
/-
  The reference's result at an index is the specification's entry.

  The reference builds the hidden array h[b, n, m, k] from three contractions over d — x with the first band of W1,
  y with the second, |x − y| with the third — broadcast to the pair grid and added left to right, then the bias; it
  normalises each row over k, applies the affine map and the positive part, contracts with W2's one column, adds b2,
  takes the positive part, and drops the trailing unit axis. Read one operation at a time at the index (b, n, m),
  every operand is met at an index built from b, n, m and the summation variable, so the result there is
  `rowScore` of the row k ↦ h[b, n, m, k], and that row is `hiddenRow` of the rows x[b, n, :] and y[b, m, :].
  The host's sums start from the zero word, which is the extended real 0: `0 + s = s` for every extended real s.
-/
import proofs.«147647_j1460288881502_2_alg».proof.Proof.Gen.ReferenceIdeal.Read
import proofs.«147647_j1460288881502_2_alg».proof.Proof.PairSpec
import Idealize.ShloMosaic.PureOps.Ideal.Laws

noncomputable section

open scoped BigOperators

namespace Cert.RefEntry

open Cert.ReferenceIdeal Cert.ReferenceIdeal.Read Idealize.ShloMosaic Idealize.ShloMosaic.ValueIdx Cert.PairSpec

/-! ## Where each operand is read: the composed index maps at (b, n, m) -/

section Indices
variable (b : Fin 4) (n mm : Fin 512) (k k' : Fin 128)

/-- Dropping the trailing unit axis: the row-major position of (b, n, m) in [4,512,512,1] is that of (b, n, m, 0). -/
theorem at_out_lhs : lidx_main_v46 (idx_main_v51 (ix3 b n mm)) k = ix4 b n mm k := by
  have hb := b.isLt; have hn := n.isLt; have hm := mm.isLt
  funext a; apply Fin.ext
  match a with
  | ⟨0, _⟩ => show ((b.val * 512 + n.val) * 512 + mm.val) / 262144 = b.val; omega
  | ⟨1, _⟩ => show ((b.val * 512 + n.val) * 512 + mm.val) / 512 % 512 = n.val; omega
  | ⟨2, _⟩ => show ((b.val * 512 + n.val) * 512 + mm.val) / 1 % 512 = mm.val; omega
  | ⟨3, _⟩ => rfl

theorem at_out_rhs : ridx_main_v46 (idx_main_v51 (ix3 b n mm)) k = ix2 k (0 : Fin 1) :=
  funext fun a => match a with | ⟨0, _⟩ => rfl | ⟨1, _⟩ => rfl

theorem at_bias2 : idx_main_v47 (idx_main_v48 (idx_main_v51 (ix3 b n mm))) = ix1 (0 : Fin 1) :=
  funext fun a => match a with | ⟨0, _⟩ => rfl

theorem at_mean : idx_main_v21 (idx_main_v22 (idx_main_v32 (ix4 b n mm k))) k' = ix4 b n mm k' :=
  funext fun a => match a with | ⟨0, _⟩ => rfl | ⟨1, _⟩ => rfl | ⟨2, _⟩ => rfl | ⟨3, _⟩ => rfl

theorem at_var : idx_main_v28 (idx_main_v29 (idx_main_v37 (ix4 b n mm k))) k' = ix4 b n mm k' :=
  funext fun a => match a with | ⟨0, _⟩ => rfl | ⟨1, _⟩ => rfl | ⟨2, _⟩ => rfl | ⟨3, _⟩ => rfl

theorem at_var_mean : idx_main_v21 (idx_main_v22 (idx_main_v25 (ix4 b n mm k))) k' = ix4 b n mm k' :=
  funext fun a => match a with | ⟨0, _⟩ => rfl | ⟨1, _⟩ => rfl | ⟨2, _⟩ => rfl | ⟨3, _⟩ => rfl

theorem at_gamma : idx_main_v39 (idx_main_v40 (ix4 b n mm k)) = ix1 k :=
  funext fun a => match a with | ⟨0, _⟩ => rfl

theorem at_beta : idx_main_v42 (idx_main_v43 (ix4 b n mm k)) = ix1 k :=
  funext fun a => match a with | ⟨0, _⟩ => rfl

end Indices

/-! ## From the hidden array to the result -/

/-- The reference's result at (b, n, m) is `rowScore` of the hidden array's row there. -/
theorem ref_score (x0 x1 : (⟨S4x512x128, .f32⟩ : BufTy).Contents (Elt Ideal)) (x2 : (⟨S384x128, .f32⟩ : BufTy).Contents (Elt Ideal))
    (x3 x4 x5 : (⟨S128, .f32⟩ : BufTy).Contents (Elt Ideal)) (x6 : (⟨S128x1, .f32⟩ : BufTy).Contents (Elt Ideal))
    (x7 : (⟨S1, .f32⟩ : BufTy).Contents (Elt Ideal)) (b : Fin 4) (n mm : Fin 512) :
    val_main_v51 (F := Ideal) x0 x1 x2 x3 x4 x5 x6 x7 (ix3 b n mm)
      = rowScore (fun k => val_main_v20 (F := Ideal) x0 x1 x2 x3 (ix4 b n mm k)) (fun k => x4 (ix1 k)) (fun k => x5 (ix1 k))
          (fun k => x6 (ix2 k (0 : Fin 1))) (x7 (ix1 (0 : Fin 1))) := by
  simp only [val_main_v51_apply, val_main_v50_apply, val_main_v49_apply, val_main_v48_apply, val_main_v47_apply,
    val_main_v46_apply, val_main_v45_apply, val_main_v44_apply, val_main_v43_apply, val_main_v42_apply,
    val_main_v41_apply, val_main_v40_apply, val_main_v39_apply, val_main_v38_apply, val_main_v37_apply,
    val_main_v36_apply, val_main_v35_apply, val_main_v34_apply, val_main_v33_apply, val_main_v32_apply,
    val_main_v31_apply, val_main_v30_apply, val_main_v29_apply, val_main_v28_apply, val_main_v27_apply,
    val_main_v26_apply, val_main_v25_apply, val_main_v24_apply, val_main_v23_apply, val_main_v22_apply,
    val_main_v21_apply, val_main_cst_apply, val_main_cst_0_apply, val_main_cst_1_apply, val_main_cst_2_apply,
    val_main_cst_3_apply, val_main_call0_v0_apply, val_main_call0_cst_apply, val_main_call1_v0_apply,
    val_main_call1_cst_apply]
  simp only [at_out_lhs, at_out_rhs, at_bias2]
  simp only [at_mean, at_var, at_var_mean, at_gamma, at_beta]
  simp only [Ideal.ofBits_def, Ideal.ofBits_zero_f32, zero_add]
  rfl

/-! ## The hidden array -/

section HiddenIndices
variable (b : Fin 4) (n mm : Fin 512) (k d : Fin 128)

theorem at_x : lidx_main_v9 (idx_main_v10 (idx_main_v13 (ix4 b n mm k))) d = ix3 b n d :=
  funext fun a => match a with | ⟨0, _⟩ => rfl | ⟨1, _⟩ => rfl | ⟨2, _⟩ => rfl

theorem at_wx : idx_main_v6 (ridx_main_v9 (idx_main_v10 (idx_main_v13 (ix4 b n mm k))) d) = ix2 (bandX d) k :=
  funext fun a => match a with | ⟨0, _⟩ => rfl | ⟨1, _⟩ => rfl

theorem at_y : lidx_main_v11 (idx_main_v12 (idx_main_v14 (ix4 b n mm k))) d = ix3 b mm d :=
  funext fun a => match a with | ⟨0, _⟩ => rfl | ⟨1, _⟩ => rfl | ⟨2, _⟩ => rfl

theorem at_wy : idx_main_v7 (ridx_main_v11 (idx_main_v12 (idx_main_v14 (ix4 b n mm k))) d) = ix2 (bandY d) k :=
  funext fun a => match a with | ⟨0, _⟩ => rfl | ⟨1, _⟩ => rfl

theorem at_dx : idx_main_v0 (idx_main_v2 (lidx_main_v16 (ix4 b n mm k) d)) = ix3 b n d :=
  funext fun a => match a with | ⟨0, _⟩ => rfl | ⟨1, _⟩ => rfl | ⟨2, _⟩ => rfl

theorem at_dy : idx_main_v1 (idx_main_v3 (lidx_main_v16 (ix4 b n mm k) d)) = ix3 b mm d :=
  funext fun a => match a with | ⟨0, _⟩ => rfl | ⟨1, _⟩ => rfl | ⟨2, _⟩ => rfl

theorem at_wd : idx_main_v8 (ridx_main_v16 (ix4 b n mm k) d) = ix2 (bandD d) k :=
  funext fun a => match a with | ⟨0, _⟩ => rfl | ⟨1, _⟩ => rfl

theorem at_bias1 : idx_main_v18 (idx_main_v19 (ix4 b n mm k)) = ix1 k :=
  funext fun a => match a with | ⟨0, _⟩ => rfl

end HiddenIndices

/-- The hidden array at (b, n, m, k) is `hiddenRow` of the rows x[b, n, :], y[b, m, :], the three bands of W1 and
    b1: each contraction is the sum over d of the products, and the host's |·| is `max a (−a)`. -/
theorem ref_hidden (x0 x1 : (⟨S4x512x128, .f32⟩ : BufTy).Contents (Elt Ideal)) (x2 : (⟨S384x128, .f32⟩ : BufTy).Contents (Elt Ideal))
    (x3 : (⟨S128, .f32⟩ : BufTy).Contents (Elt Ideal)) (b : Fin 4) (n mm : Fin 512) (k : Fin 128) :
    val_main_v20 (F := Ideal) x0 x1 x2 x3 (ix4 b n mm k)
      = hiddenRow (fun d => x0 (ix3 b n d)) (fun d => x1 (ix3 b mm d))
          (fun d k => x2 (ix2 (bandX d) k)) (fun d k => x2 (ix2 (bandY d) k)) (fun d k => x2 (ix2 (bandD d) k))
          (fun k => x3 (ix1 k)) k := by
  simp only [val_main_v20_apply, val_main_v19_apply, val_main_v18_apply, val_main_v17_apply, val_main_v16_apply,
    val_main_v15_apply, val_main_v14_apply, val_main_v13_apply, val_main_v12_apply, val_main_v11_apply,
    val_main_v10_apply, val_main_v9_apply, val_main_v8_apply, val_main_v7_apply, val_main_v6_apply,
    val_main_v5_apply, val_main_v4_apply, val_main_v3_apply, val_main_v2_apply, val_main_v1_apply, val_main_v0_apply]
  simp only [at_x, at_wx, at_y, at_wy, at_dx, at_dy, at_wd, at_bias1]
  rfl

/-! ## The reference's result is the specification -/

/-- Index by index, the reference's result array is `result` of its eight arguments. -/
theorem ref_result (x0 x1 : (⟨S4x512x128, .f32⟩ : BufTy).Contents (Elt Ideal)) (x2 : (⟨S384x128, .f32⟩ : BufTy).Contents (Elt Ideal))
    (x3 x4 x5 : (⟨S128, .f32⟩ : BufTy).Contents (Elt Ideal)) (x6 : (⟨S128x1, .f32⟩ : BufTy).Contents (Elt Ideal))
    (x7 : (⟨S1, .f32⟩ : BufTy).Contents (Elt Ideal)) :
    val_main_v51 (F := Ideal) x0 x1 x2 x3 x4 x5 x6 x7 = result x0 x1 x2 x3 x4 x5 x6 x7 := by
  funext i
  obtain ⟨b, n, mm, rfl⟩ : ∃ (b : Fin 4) (n mm : Fin 512), i = ix3 b n mm := ⟨i 0, i 1, i 2, eq_ix3 i⟩
  rw [ref_score, result_apply]
  unfold entry
  congr 1
  funext k
  exact ref_hidden x0 x1 x2 x3 b n mm k

end Cert.RefEntry

end
-- ==== Proof.lean ====
/- The proof of `Cert.Claim` for the pairwise scorer.

   For every batch b and every pair (n, m) of a row of x and a row of y the programs compute
       out[b, n, m] = max ((Σ_k a[k]·W2[k, 0]) + b2) 0,   a[k] = max (((h[k] − μ)·r)·γ[k] + β[k]) 0,
   where h is the hidden row of the pair — Σ_d x[d]·W1[d, k] + Σ_d y[d]·W1[128 + d, k] + Σ_d |x[d] − y[d]|·W1[256 + d, k]
   + b1[k], added in that grouping —, μ its mean over k, and r = rsqrt (mean of (h − μ)² + ε) (Proof/PairSpec.lean).

   The reference computes this on whole [4, 512, 512, 128] arrays (Proof/RefEntry.lean: its result array, read one
   operation at a time at an index, is the specification). The kernel computes it one [64, 256] block of pairs per grid
   point: the body's products, sums along the hidden axis and pointwise operations at an entry of the block are the
   same row function (Proof/BlockLayout.lean, KernelDots.lean, KernelRow.lean, KernelBlock.lean), the block a point
   writes is that block of the specification's result, and the 64 blocks tile the output (Proof/KernelArray.lean).
   Over the extended reals the two sides agree term by term — a product into a zero accumulator and a host sum
   started from the zero word are the plain sum, changes of float format are the identity, |a| is max a (−a) on both
   sides — so the precondition (finite inputs) is not used for the value; the frames are the generated ones, and the
   ideal pass rewrote nothing, so `preserves` is `True`. -/
import proofs.«147647_j1460288881502_2_alg».proof.Defs
import proofs.«147647_j1460288881502_2_alg».proof.Proof.Gen.Kernel
import proofs.«147647_j1460288881502_2_alg».proof.Proof.Gen.Kernel.Frame
import proofs.«147647_j1460288881502_2_alg».proof.Proof.Gen.KernelIdeal
import proofs.«147647_j1460288881502_2_alg».proof.Proof.Gen.KernelIdeal.Frame
import proofs.«147647_j1460288881502_2_alg».proof.Proof.Gen.ReferenceIdeal
import proofs.«147647_j1460288881502_2_alg».proof.Proof.Gen.Pre_finite_inputs
import proofs.«147647_j1460288881502_2_alg».proof.Proof.Gen.ReferenceIdeal.Run
import proofs.«147647_j1460288881502_2_alg».proof.Proof.Gen.ReferenceIdeal.Read
import proofs.«147647_j1460288881502_2_alg».proof.Proof.KernelArray
import proofs.«147647_j1460288881502_2_alg».proof.Proof.RefEntry
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the eight arguments both idealized programs end with the result array at the
    specification's `result` of those arguments. -/
theorem algebraic : Cert.algebraic_KernelIdeal_ReferenceIdeal := by
  intro m ρ m' ρ' _ hagree
  refine ⟨fun c => Cert.KernelArray.spec m c, Cert.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.RefEntry.ref_result]
  obtain ⟨h0, h1, h2, h3, h4, h5, h6, h7⟩ := hagree c
  rw [h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
